-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S5000 : Shape := ⟨1, ![5000]⟩
abbrev S800000x128 : Shape := ⟨2, ![800000, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S1x1 : Shape := ⟨2, ![1, 1]⟩

abbrev nBuf : Space → Nat
  | .hbm => 111
  | .vmem => 48
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .bf16⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .bf16⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .bf16⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .bf16⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S_, .f32⟩
  | .hbm, ⟨91, _⟩ => ⟨S256x128, .f32⟩
  | .hbm, ⟨92, _⟩ => ⟨S50000x1, .i32⟩
  | .hbm, ⟨93, _⟩ => ⟨S256x128, .f32⟩
  | .hbm, ⟨94, _⟩ => ⟨S_, .f32⟩
  | .hbm, ⟨95, _⟩ => ⟨S50000, .f32⟩
  | .hbm, ⟨96, _⟩ => ⟨S_, .f32⟩
  | .hbm, ⟨97, _⟩ => ⟨S256, .f32⟩
  | .hbm, ⟨98, _⟩ => ⟨S50000x1, .i32⟩
  | .hbm, ⟨99, _⟩ => ⟨S256, .f32⟩
  | .hbm, ⟨100, _⟩ => ⟨S_, .f32⟩
  | .hbm, ⟨101, _⟩ => ⟨S256, .f32⟩
  | .hbm, ⟨102, _⟩ => ⟨S256, .f32⟩
  | .hbm, ⟨103, _⟩ => ⟨S256x1, .f32⟩
  | .hbm, ⟨104, _⟩ => ⟨S256x128, .f32⟩
  | .hbm, ⟨105, _⟩ => ⟨S256x128, .f32⟩
  | .hbm, ⟨106, _⟩ => ⟨S256x1, .f32⟩
  | .hbm, ⟨107, _⟩ => ⟨S1x1, .f32⟩
  | .hbm, ⟨108, _⟩ => ⟨S256x1, .f32⟩
  | .hbm, ⟨109, _⟩ => ⟨S256x1, .f32⟩
  | .hbm, ⟨110, _⟩ => ⟨S256, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S5000x128, .bf16⟩
  | .local _ .vmem, ⟨26, _⟩ => ⟨S5000x128, .bf16⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x1, .f32⟩
  | .local _ .vmem, ⟨36, _⟩ => ⟨S5000x1, .f32⟩
  | .local _ .vmem, ⟨37, _⟩ => ⟨S5000x128, .bf16⟩
  | .local _ .vmem, ⟨38, _⟩ => ⟨S5000x128, .bf16⟩
  | .local _ .vmem, ⟨39, _⟩ => ⟨S5000x128, .f32⟩
  | .local _ .vmem, ⟨40, _⟩ => ⟨S5000x128, .f32⟩
  | .local _ .vmem, ⟨41, _⟩ => ⟨S5000x128, .bf16⟩
  | .local _ .vmem, ⟨42, _⟩ => ⟨S5000x128, .bf16⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .bf16 = 32 ∨ (Rect.block (s := S50000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .bf16 = 32 ∨ (Rect.block (s := S50000x128) S5000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .bf16 = 32 ∨ (Rect.block (s := S50000x128) S5000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .bf16 = 32 ∨ (Rect.block (s := S50000x128) S5000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v50) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v61) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v21) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v62) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v63) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S850000 : Shape := ⟨1, ![850000]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S1x1 : Shape := ⟨2, ![1, 1]⟩

abbrev nBuf : Space → Nat
  | .hbm => 254
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S50000x64, .f32⟩
  | 29 => ⟨S_, .f32⟩
  | 30 => ⟨S50000, .f32⟩
  | 31 => ⟨S50000x1, .f32⟩
  | 32 => ⟨S50000x1, .f32⟩
  | 33 => ⟨S50000x64, .f32⟩
  | 34 => ⟨S50000x64, .f32⟩
  | 35 => ⟨S50000, .i32⟩
  | 36 => ⟨S1x800000, .i32⟩
  | 37 => ⟨S800000, .i32⟩
  | 38 => ⟨S850000, .i32⟩
  | 39 => ⟨S1x800000, .i32⟩
  | 40 => ⟨S800000, .i32⟩
  | 41 => ⟨S850000, .i32⟩
  | 42 => ⟨S_, .f32⟩
  | 43 => ⟨S850000, .f32⟩
  | 44 => ⟨S_, .f32⟩
  | 45 => ⟨S50000, .f32⟩
  | 46 => ⟨S850000x1, .i32⟩
  | 47 => ⟨S50000, .f32⟩
  | 48 => ⟨S_, .f32⟩
  | 49 => ⟨S50000, .f32⟩
  | 50 => ⟨S50000, .i1⟩
  | 51 => ⟨S_, .f32⟩
  | 52 => ⟨S50000, .f32⟩
  | 53 => ⟨S50000, .f32⟩
  | 54 => ⟨S50000, .f32⟩
  | 55 => ⟨S_, .f32⟩
  | 56 => ⟨S_, .f32⟩
  | 57 => ⟨S50000, .f32⟩
  | 58 => ⟨S50000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000, .f32⟩
  | 77 => ⟨S850000, .f32⟩
  | 78 => ⟨S50000x128, .f32⟩
  | 79 => ⟨S850000x1, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000, .i32⟩
  | 102 => ⟨S1x800000, .i32⟩
  | 103 => ⟨S800000, .i32⟩
  | 104 => ⟨S850000, .i32⟩
  | 105 => ⟨S1x800000, .i32⟩
  | 106 => ⟨S800000, .i32⟩
  | 107 => ⟨S850000, .i32⟩
  | 108 => ⟨S_, .f32⟩
  | 109 => ⟨S850000, .f32⟩
  | 110 => ⟨S_, .f32⟩
  | 111 => ⟨S50000, .f32⟩
  | 112 => ⟨S850000x1, .i32⟩
  | 113 => ⟨S50000, .f32⟩
  | 114 => ⟨S_, .f32⟩
  | 115 => ⟨S50000, .f32⟩
  | 116 => ⟨S50000, .i1⟩
  | 117 => ⟨S_, .f32⟩
  | 118 => ⟨S50000, .f32⟩
  | 119 => ⟨S50000, .f32⟩
  | 120 => ⟨S50000, .f32⟩
  | 121 => ⟨S_, .f32⟩
  | 122 => ⟨S_, .f32⟩
  | 123 => ⟨S50000, .f32⟩
  | 124 => ⟨S50000, .f32⟩
  | 125 => ⟨S_, .i32⟩
  | 126 => ⟨S850000, .i32⟩
  | 127 => ⟨S850000, .i1⟩
  | _ => ⟨S50000x64, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000, .f32⟩
  | 15 => ⟨S850000, .f32⟩
  | 16 => ⟨S50000x128, .f32⟩
  | 17 => ⟨S850000x1, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x128, .f32⟩
  | 27 => ⟨S850000x128, .f32⟩
  | 28 => ⟨S850000x128, .f32⟩
  | 29 => ⟨S_, .f32⟩
  | 30 => ⟨S50000x128, .f32⟩
  | 31 => ⟨S850000x1, .i32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000, .i32⟩
  | 40 => ⟨S1x800000, .i32⟩
  | 41 => ⟨S800000, .i32⟩
  | 42 => ⟨S850000, .i32⟩
  | 43 => ⟨S1x800000, .i32⟩
  | 44 => ⟨S800000, .i32⟩
  | 45 => ⟨S850000, .i32⟩
  | 46 => ⟨S_, .f32⟩
  | 47 => ⟨S850000, .f32⟩
  | 48 => ⟨S_, .f32⟩
  | 49 => ⟨S50000, .f32⟩
  | 50 => ⟨S850000x1, .i32⟩
  | 51 => ⟨S50000, .f32⟩
  | 52 => ⟨S_, .f32⟩
  | 53 => ⟨S50000, .f32⟩
  | 54 => ⟨S50000, .i1⟩
  | 55 => ⟨S_, .f32⟩
  | 56 => ⟨S50000, .f32⟩
  | 57 => ⟨S50000, .f32⟩
  | 58 => ⟨S50000, .f32⟩
  | 59 => ⟨S_, .f32⟩
  | 60 => ⟨S_, .f32⟩
  | 61 => ⟨S50000, .f32⟩
  | 62 => ⟨S50000, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S850000, .f32⟩
  | 82 => ⟨S50000x128, .f32⟩
  | 83 => ⟨S850000x1, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x128, .f32⟩
  | 93 => ⟨S850000x128, .f32⟩
  | 94 => ⟨S850000x128, .f32⟩
  | 95 => ⟨S_, .f32⟩
  | 96 => ⟨S50000x128, .f32⟩
  | 97 => ⟨S850000x1, .i32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .f32⟩
  | 106 => ⟨S256x128, .f32⟩
  | 107 => ⟨S50000x1, .i32⟩
  | 108 => ⟨S256x128, .f32⟩
  | 109 => ⟨S_, .f32⟩
  | 110 => ⟨S50000, .f32⟩
  | 111 => ⟨S_, .f32⟩
  | 112 => ⟨S256, .f32⟩
  | 113 => ⟨S50000x1, .i32⟩
  | 114 => ⟨S256, .f32⟩
  | 115 => ⟨S_, .f32⟩
  | 116 => ⟨S256, .f32⟩
  | 117 => ⟨S256, .f32⟩
  | 118 => ⟨S256x1, .f32⟩
  | 119 => ⟨S256x128, .f32⟩
  | 120 => ⟨S256x128, .f32⟩
  | 121 => ⟨S256x1, .f32⟩
  | 122 => ⟨S1x1, .f32⟩
  | 123 => ⟨S256x1, .f32⟩
  | 124 => ⟨S256x1, .f32⟩
  | 125 => ⟨S256, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_call1_v0 : Ref sig .tc := ⟨.hbm, 56, rfl⟩
abbrev main_call1_v1 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call2_cst : Ref sig .tc := ⟨.hbm, 98, rfl⟩
abbrev main_call2_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_cst_16 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_17 : Ref sig .tc := ⟨.hbm, 121, rfl⟩
abbrev main_call3_v0 : Ref sig .tc := ⟨.hbm, 122, rfl⟩
abbrev main_call3_v1 : Ref sig .tc := ⟨.hbm, 123, rfl⟩
abbrev main_v83 : Ref sig .tc := ⟨.hbm, 124, rfl⟩
abbrev main_c_18 : Ref sig .tc := ⟨.hbm, 125, rfl⟩
abbrev main_v84 : Ref sig .tc := ⟨.hbm, 126, rfl⟩
abbrev main_v85 : Ref sig .tc := ⟨.hbm, 127, rfl⟩
abbrev main_c_19 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_20 : Ref sig .tc := ⟨.hbm, 134, rfl⟩
abbrev main_v91 : Ref sig .tc := ⟨.hbm, 135, rfl⟩
abbrev main_v92 : Ref sig .tc := ⟨.hbm, 136, rfl⟩
abbrev main_c_21 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_22 : Ref sig .tc := ⟨.hbm, 146, rfl⟩
abbrev main_v101 : Ref sig .tc := ⟨.hbm, 147, rfl⟩
abbrev main_v102 : Ref sig .tc := ⟨.hbm, 148, rfl⟩
abbrev main_c_23 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_24 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_call4_cst : Ref sig .tc := ⟨.hbm, 164, rfl⟩
abbrev main_call4_v0 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_25 : Ref sig .tc := ⟨.hbm, 174, rfl⟩
abbrev main_v124 : Ref sig .tc := ⟨.hbm, 175, rfl⟩
abbrev main_cst_26 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_27 : Ref sig .tc := ⟨.hbm, 180, rfl⟩
abbrev main_v128 : Ref sig .tc := ⟨.hbm, 181, rfl⟩
abbrev main_v129 : Ref sig .tc := ⟨.hbm, 182, rfl⟩
abbrev main_cst_28 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_29 : Ref sig .tc := ⟨.hbm, 187, rfl⟩
abbrev main_call5_v0 : Ref sig .tc := ⟨.hbm, 188, rfl⟩
abbrev main_call5_v1 : Ref sig .tc := ⟨.hbm, 189, rfl⟩
abbrev main_v133 : Ref sig .tc := ⟨.hbm, 190, rfl⟩
abbrev main_c_30 : Ref sig .tc := ⟨.hbm, 191, rfl⟩
abbrev main_v134 : Ref sig .tc := ⟨.hbm, 192, rfl⟩
abbrev main_v135 : Ref sig .tc := ⟨.hbm, 193, rfl⟩
abbrev main_c_31 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_c_32 : Ref sig .tc := ⟨.hbm, 200, rfl⟩
abbrev main_v141 : Ref sig .tc := ⟨.hbm, 201, rfl⟩
abbrev main_v142 : Ref sig .tc := ⟨.hbm, 202, rfl⟩
abbrev main_c_33 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_c_34 : Ref sig .tc := ⟨.hbm, 212, rfl⟩
abbrev main_v151 : Ref sig .tc := ⟨.hbm, 213, rfl⟩
abbrev main_v152 : Ref sig .tc := ⟨.hbm, 214, rfl⟩
abbrev main_c_35 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_36 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_call6_cst : Ref sig .tc := ⟨.hbm, 230, rfl⟩
abbrev main_call6_v0 : Ref sig .tc := ⟨.hbm, 231, rfl⟩
abbrev main_v166 : Ref sig .tc := ⟨.hbm, 232, rfl⟩
abbrev main_cst_37 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_38 : Ref sig .tc := ⟨.hbm, 237, rfl⟩
abbrev main_v170 : Ref sig .tc := ⟨.hbm, 238, rfl⟩
abbrev main_cst_39 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_cst_40 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x1_S256x1_1_0_0_1_n_n_wf : DotDims.WF S256x128 S128x1 S256x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KernelRun.lean ====
/-
  The idealized kernel's run with its result named.

  @main is eleven segments: five stretches of host operations and six tiled regions. The buffer contents at each
  segment boundary are a fold from the launch memory: a stretch applies its operations, a region leaves each of its
  output arrays at what its grid points wrote back and every other buffer as it found it. Every weakly fair execution
  terminates with every unscoped buffer at the last boundary's contents; read at the result buffer and at the
  arguments, that is the result at the last fold and the arguments as launched.
-/
import proofs.«141337_j45904610459949_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v80) = W11 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v80 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.KRun

end
-- ==== Proof.KernelKeep.lean ====
/-
  Buffers that no later segment writes keep their contents from boundary to boundary.

  A stretch of host operations changes only the buffers its operations write, and a tiled region only its own arrays.
  So the source and destination words and the factor column, once computed before the first region, are found unchanged
  by every later stretch and region; each region's output is found unchanged by the stretch that follows it; and an
  argument array is, at every boundary, what the program was launched with.
-/
import proofs.«141337_j45904610459949_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep_main_v21_3 (c : Dev nD) : W3 m ρ c (Proc.devRef .tc main_v21) = W1 m ρ c (Proc.devRef .tc main_v21) :=
  calc W3 m ρ c (Proc.devRef .tc main_v21)
    _ = W2 m ρ c (Proc.devRef .tc main_v21) := StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v21) := (W2_arr m ρ c 2).trans (((dat0 (V1 m ρ) c).arrAt_in 2 rfl _).trans (A_eq0 (V1 m ρ) c 2))

theorem keep_main_v21_4 (c : Dev nD) : W4 m ρ c (Proc.devRef .tc main_v21) = W1 m ρ c (Proc.devRef .tc main_v21) :=
  calc W4 m ρ c (Proc.devRef .tc main_v21)
    _ = W3 m ρ c (Proc.devRef .tc main_v21) := (W4_arr m ρ c 2).trans (((dat1 (V3 m ρ) c).arrAt_in 2 rfl _).trans (A_eq1 (V3 m ρ) c 2))
    _ = W2 m ρ c (Proc.devRef .tc main_v21) := StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v21) := (W2_arr m ρ c 2).trans (((dat0 (V1 m ρ) c).arrAt_in 2 rfl _).trans (A_eq0 (V1 m ρ) c 2))

theorem keep_main_v21_6 (c : Dev nD) : W6 m ρ c (Proc.devRef .tc main_v21) = W1 m ρ c (Proc.devRef .tc main_v21) :=
  calc W6 m ρ c (Proc.devRef .tc main_v21)
    _ = W5 m ρ c (Proc.devRef .tc main_v21) := StableHlo.after_of_forall_not_mem (b := Proc.devRef .tc main_v21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v21) := (W5_arr m ρ c 2).trans (((dat2 (V4 m ρ) c).arrAt_in 2 rfl _).trans (A_eq2 (V4 m ρ) c 2))
    _ = W3 m ρ c (Proc.devRef .tc main_v21) := (W4_arr m ρ c 2).trans (((dat1 (V3 m ρ) c).arrAt_in 2 rfl _).trans (A_eq1 (V3 m ρ) c 2))
    _ = W2 m ρ c (Proc.devRef .tc main_v21) := StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v21) := (W2_arr m ρ c 2).trans (((dat0 (V1 m ρ) c).arrAt_in 2 rfl _).trans (A_eq0 (V1 m ρ) c 2))

theorem keep_main_v21_7 (c : Dev nD) : W7 m ρ c (Proc.devRef .tc main_v21) = W1 m ρ c (Proc.devRef .tc main_v21) :=
  calc W7 m ρ c (Proc.devRef .tc main_v21)
    _ = W6 m ρ c (Proc.devRef .tc main_v21) := (W7_arr m ρ c 2).trans (((dat3 (V6 m ρ) c).arrAt_in 2 rfl _).trans (A_eq3 (V6 m ρ) c 2))
    _ = W5 m ρ c (Proc.devRef .tc main_v21) := StableHlo.after_of_forall_not_mem (b := Proc.devRef .tc main_v21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v21) := (W5_arr m ρ c 2).trans (((dat2 (V4 m ρ) c).arrAt_in 2 rfl _).trans (A_eq2 (V4 m ρ) c 2))
    _ = W3 m ρ c (Proc.devRef .tc main_v21) := (W4_arr m ρ c 2).trans (((dat1 (V3 m ρ) c).arrAt_in 2 rfl _).trans (A_eq1 (V3 m ρ) c 2))
    _ = W2 m ρ c (Proc.devRef .tc main_v21) := StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v21) := (W2_arr m ρ c 2).trans (((dat0 (V1 m ρ) c).arrAt_in 2 rfl _).trans (A_eq0 (V1 m ρ) c 2))

theorem keep_main_v21_9 (c : Dev nD) : W9 m ρ c (Proc.devRef .tc main_v21) = W1 m ρ c (Proc.devRef .tc main_v21) :=
  calc W9 m ρ c (Proc.devRef .tc main_v21)
    _ = W8 m ρ c (Proc.devRef .tc main_v21) := StableHlo.after_of_forall_not_mem (b := Proc.devRef .tc main_v21) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v21) := (W8_arr m ρ c 2).trans (((dat4 (V7 m ρ) c).arrAt_in 2 rfl _).trans (A_eq4 (V7 m ρ) c 2))
    _ = W6 m ρ c (Proc.devRef .tc main_v21) := (W7_arr m ρ c 2).trans (((dat3 (V6 m ρ) c).arrAt_in 2 rfl _).trans (A_eq3 (V6 m ρ) c 2))
    _ = W5 m ρ c (Proc.devRef .tc main_v21) := StableHlo.after_of_forall_not_mem (b := Proc.devRef .tc main_v21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v21) := (W5_arr m ρ c 2).trans (((dat2 (V4 m ρ) c).arrAt_in 2 rfl _).trans (A_eq2 (V4 m ρ) c 2))
    _ = W3 m ρ c (Proc.devRef .tc main_v21) := (W4_arr m ρ c 2).trans (((dat1 (V3 m ρ) c).arrAt_in 2 rfl _).trans (A_eq1 (V3 m ρ) c 2))
    _ = W2 m ρ c (Proc.devRef .tc main_v21) := StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v21) := (W2_arr m ρ c 2).trans (((dat0 (V1 m ρ) c).arrAt_in 2 rfl _).trans (A_eq0 (V1 m ρ) c 2))

theorem keep_main_v1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_main_v3_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_main_v1_5 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem keep_main_v3_5 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_main_v1_8 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem keep_main_v3_8 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_main_v22_3 (c : Dev nD) : W3 m ρ c (Proc.devRef .tc main_v22) = W2 m ρ c (Proc.devRef .tc main_v22) :=
  calc W3 m ρ c (Proc.devRef .tc main_v22)
    _ = W2 m ρ c (Proc.devRef .tc main_v22) := StableHlo.after_of_forall_not_mem (b := Proc.devRef .tc main_v22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v36_6 (c : Dev nD) : W6 m ρ c (Proc.devRef .tc main_v36) = W5 m ρ c (Proc.devRef .tc main_v36) :=
  calc W6 m ρ c (Proc.devRef .tc main_v36)
    _ = W5 m ρ c (Proc.devRef .tc main_v36) := StableHlo.after_of_forall_not_mem (b := Proc.devRef .tc main_v36) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v50_9 (c : Dev nD) : W9 m ρ c (Proc.devRef .tc main_v50) = W8 m ρ c (Proc.devRef .tc main_v50) :=
  calc W9 m ρ c (Proc.devRef .tc main_v50)
    _ = W8 m ρ c (Proc.devRef .tc main_v50) := StableHlo.after_of_forall_not_mem (b := Proc.devRef .tc main_v50) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg3_1 (c : Dev nD) : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg4_2 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg5_4 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg6_5 (c : Dev nD) : W5 m ρ c (Proc.devRef .tc main_arg6) = W0 m ρ c (Proc.devRef .tc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg7_7 (c : Dev nD) : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg8_8 (c : Dev nD) : W8 m ρ c (Proc.devRef .tc main_arg8) = W0 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg2_10 (c : Dev nD) : W10 m ρ c (Proc.devRef .tc main_arg2) = W0 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg9_10 (c : Dev nD) : W10 m ρ c (Proc.devRef .tc main_arg9) = W0 m ρ c (Proc.devRef .tc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg10_10 (c : Dev nD) : W10 m ρ c (Proc.devRef .tc main_arg10) = W0 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.Spec.lean ====
/-
  What the network computes, entry by entry, on the extended reals.

  A graph has 50000 nodes and 800000 edges given as two rows of 32-bit index words: row 0 the sources, row 1 the
  destinations. An index word that is negative counts from the end (`wrapW`), and the row it names is the wrapped word
  read signed and clamped into the node range (`rowOf`). An edge lands on node p when its landing word, read signed, is p
  itself: words outside the node range land nowhere.

  `agg g s X` gathers, for every edge, the row of X named by the edge's word in g and sums the gathered rows into the
  node the edge's word in s lands on. `degree d p` counts the edges whose word in d lands on p, plus one for the node's
  own loop, and `dis d p` is its inverse square root. One layer of the convolution with self-loops, written the way the
  tiled program computes it, scales every row of the transformed features by its node's factor (`scaleRows`), aggregates
  the scaled rows over the edges, adds the node's own scaled row, scales by the node's factor once more, adds the bias and
  rectifies (`combine`, `layer`). The first layer's input is the neighbour sum of the node features with every row divided
  by its Euclidean norm (`normRows`).
-/
import Idealize.ShloMosaic.PureOps.Ideal
import Idealize.ShloMosaic.Lib.ValueIdx
import proofs.«141337_j45904610459949_2_alg».proof.Proof.LibGatherRows

noncomputable section

namespace Cert.Gcn

open Idealize.ShloMosaic Idealize.ShloMosaic.ValueIdx Idealize.ShloMosaic.GatherRows

/-- An a × b matrix of extended reals, indexed as the programs' rank-2 arrays are. -/
abbrev Mat (a b : Nat) := (⟨2, ![a, b]⟩ : Shape).Idx → EReal
/-- A vector of extended reals. -/
abbrev Arr (a : Nat) := (⟨1, ![a]⟩ : Shape).Idx → EReal
/-- A vector of 32-bit index words. -/
abbrev Words (a : Nat) := (⟨1, ![a]⟩ : Shape).Idx → BitVec 32

/-- A matrix from its entries by coordinates. -/
def mat {a b : Nat} (f : Fin a → Fin b → EReal) : Mat a b := fun i => f ⟨(i 0).val, idx2_lt0 i⟩ ⟨(i 1).val, idx2_lt1 i⟩

theorem mat_apply {a b : Nat} (f : Fin a → Fin b → EReal) (p : Fin a) (q : Fin b) : mat f (ix2 p q) = f p q := rfl

/-- Two matrices are equal when their entries are. -/
theorem mat_ext {a b : Nat} {X Y : Mat a b} (h : ∀ (p : Fin a) (q : Fin b), X (ix2 p q) = Y (ix2 p q)) : X = Y := by
  funext i; rw [eq_ix2 i]; exact h _ _

/-- A negative index word counts from the end of the 50000 nodes. -/
def wrapW (v : BitVec 32) : BitVec 32 := Scalar.select (IntOp.cmpi .slt v 0#32) (IntOp.addi v 50000#32) v

/-- The node an index word names: wrapped, read signed, clamped into the node range. -/
def rowOf (v : BitVec 32) : Fin 50000 := clampRow 50000 (by norm_num) (wrapW v)

/-- Rows of `X` gathered by the words `g`, summed into the nodes the words `s` land on. -/
def agg {E C : Nat} (g s : Words E) (X : Mat 50000 C) : Mat 50000 C :=
  mat fun p q => ∑ e : Fin E, if (s (ix1 e)).toInt = (p.val : ℤ) then X (ix2 (rowOf (g (ix1 e))) q) else 0

/-- The number of edges landing on a node, plus one for its own loop. -/
def degree {E : Nat} (d : Words E) (p : Fin 50000) : EReal :=
  (∑ e : Fin E, if (d (ix1 e)).toInt = (p.val : ℤ) then (1 : EReal) else 0) + 1

/-- A node's factor: the inverse square root of its degree. -/
def dis {E : Nat} (d : Words E) (p : Fin 50000) : EReal := Ideal.rsqrt (degree d p)

/-- Every row divided by its Euclidean norm. -/
def normRows {C : Nat} (S : Mat 50000 C) : Mat 50000 C :=
  mat fun p q => Ideal.div (S (ix2 p q)) (Ideal.sqrt (∑ k : Fin C, S (ix2 p k) * S (ix2 p k)))

/-- The matrix product. -/
def mm {K C : Nat} (H : Mat 50000 K) (W : Mat K C) : Mat 50000 C :=
  mat fun p q => ∑ k : Fin K, H (ix2 p k) * W (ix2 k q)

/-- Every row scaled by its node's factor. -/
def scaleRows {C : Nat} (D : Fin 50000 → EReal) (X : Mat 50000 C) : Mat 50000 C := mat fun p q => D p * X (ix2 p q)

/-- The aggregated rows plus the node's own row, scaled by the node's factor, plus the bias, rectified. -/
def combine {C : Nat} (D : Fin 50000 → EReal) (A G : Mat 50000 C) (b : Fin C → EReal) : Mat 50000 C :=
  mat fun p q => max (D p * (A (ix2 p q) + G (ix2 p q)) + b q) 0

/-- One layer on the transformed features `HW`: sources `s`, destinations `d`. -/
def layer {E C : Nat} (D : Fin 50000 → EReal) (s d : Words E) (HW : Mat 50000 C) (b : Fin C → EReal) : Mat 50000 C :=
  combine D (agg s d (scaleRows D HW)) (scaleRows D HW) b

/-- The three layers on the normalized neighbour sum of the node features `x`. -/
def net (x : Mat 50000 64) (s d : Words 800000) (w0 : Mat 64 128) (b0 : Fin 128 → EReal) (w1 : Mat 128 128)
    (b1 : Fin 128 → EReal) (w2 : Mat 128 128) (b2 : Fin 128 → EReal) : Mat 50000 128 :=
  layer (dis d) s d (mm (layer (dis d) s d (mm (layer (dis d) s d (mm (normRows (agg d s x)) w0) b0) w1) b1) w2) b2

end Cert.Gcn

end
-- ==== Proof.SpecIO.lean ====
/-
  How the programs' arrays are read as the specification's arguments: a [50000, 1] column and a [1, 128] row as
  functions of their one free coordinate, a bias vector as a function of its coordinate, and the two rows of the
  [2, 800000] edge array as the source and destination word vectors.
-/
import proofs.«141337_j45904610459949_2_alg».proof.Proof.Spec

noncomputable section

namespace Cert.Gcn

open Idealize.ShloMosaic Idealize.ShloMosaic.ValueIdx

/-- A column's entries by row. -/
def colF {a : Nat} (col : (⟨2, ![a, 1]⟩ : Shape).Idx → EReal) (p : Fin a) : EReal := col (ix2 p (0 : Fin 1))

/-- A one-row matrix's entries by column. -/
def rowF {b : Nat} (row : (⟨2, ![1, b]⟩ : Shape).Idx → EReal) (q : Fin b) : EReal := row (ix2 (0 : Fin 1) q)

/-- A vector's entries by coordinate. -/
def vecF {b : Nat} (v : Arr b) (q : Fin b) : EReal := v (ix1 q)

/-- Row 0 of the edge array: the source words. -/
def srcW {E : Nat} (ei : (⟨2, ![2, E]⟩ : Shape).Idx → BitVec 32) : Words E :=
  fun i => ei (ix2 (0 : Fin 2) (⟨(i 0).val, (i 0).isLt⟩ : Fin E))

/-- Row 1 of the edge array: the destination words. -/
def dstW {E : Nat} (ei : (⟨2, ![2, E]⟩ : Shape).Idx → BitVec 32) : Words E :=
  fun i => ei (ix2 (1 : Fin 2) (⟨(i 0).val, (i 0).isLt⟩ : Fin E))

theorem srcW_apply {E : Nat} (ei : (⟨2, ![2, E]⟩ : Shape).Idx → BitVec 32) (e : Fin E) : srcW ei (ix1 e) = ei (ix2 (0 : Fin 2) e) := rfl

theorem dstW_apply {E : Nat} (ei : (⟨2, ![2, E]⟩ : Shape).Idx → BitVec 32) (e : Fin E) : dstW ei (ix1 e) = ei (ix2 (1 : Fin 2) e) := rfl

end Cert.Gcn

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibFlatSegments.lean ====
/-
  A flat array gathered and scattered by one column of index words, read at an index.

  `x[idx]` for a flat array `x : [N]` and indices `idx : [E]` (as `[E, 1]`): element `e` of the result is the element
  of `x` at the index `idx e`, read as a signed integer and clamped into `[0, N − 1]` — the same clamp a row gather of
  an `[N, C]` matrix applies, so a flat gather and a row gather by one index column select the same positions.
  `x.at[idx].add(v)` for flat `x : [N]`, `v : [E]` on the extended reals: element `p` ends at its initial value plus
  the sum of the updates whose index word, read signed, is `p` — the same landing condition a row scatter uses.
-/
import proofs.«141337_j45904610459949_2_alg».proof.Proof.LibScatterRows
import proofs.«141337_j45904610459949_2_alg».proof.Proof.LibGatherRows

noncomputable section

namespace Cert.LibFlatSegments

open Idealize.ShloMosaic Idealize.ShloMosaic.ValueIdx

variable {α : Type}

/-- The dimension numbers of a flat gather by a column of indices. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the element of `x` that index `e` selects. -/
theorem flat_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (GatherRows.clampRow N hN (idx (ix2 e 0)))) := by
  unfold Host.gather
  congr 1
  funext a
  refine Fin.ext ?_
  match a with
  | ⟨0, _⟩ =>
    show (flatDims N E wf).start (ix1 e) idx 0 + (flatDims N E wf).batchCoord (ix1 e) 0
      + (flatDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatDims N E wf).startIndexMap from List.mem_singleton.mpr rfl)]
    have hsi : (flatDims N E wf).siIdx (ix1 e) ⟨List.idxOf (0 : Fin 1) (flatDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- THE FLAT SEGMENT SUM READ AT `p`, on the extended reals: the operand's element plus the sum of the updates whose
    index word, read signed, is `p`. -/
theorem flat_scatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (p : Fin N) :
    Ideal.hostScatterAdd (ScatterRows.countDims N E wf) x idx upd (ix1 p)
      = x (ix1 p) + ∑ e : Fin E, if (idx (ix2 e 0)).toInt = (p.val : ℤ) then upd (ix1 e) else 0 := by
  unfold Ideal.hostScatterAdd
  congr 1
  rw [Finset.sum_filter, ScatterRows.sum_idx1]
  refine Finset.sum_congr rfl fun e _ => ?_
  simp only [ScatterRows.countDims_resultIdx?_eq_some]
  rfl

end Cert.LibFlatSegments

end
-- ==== Proof.LibBroadcastInDim.lean ====
/-
  A broadcast along named axes (stablehlo.broadcast_in_dim), read at an index, for the three layouts a row statistic
  meets on the host: a scalar repeated over any shape; a vector [a] laid out as a column [a, 1]; a column [a, 1]
  repeated across the b columns of an [a, b] matrix. For any extents and any element type.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A scalar (a rank-0 array) broadcast to any shape: every element is the scalar. -/
theorem scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

/-- A vector laid out as a column, [a] → [a, 1] along axis 0: row p of the column is element p of the vector. -/
theorem vecAsCol_apply {a : Nat} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun d => match d with
    | ⟨0, _⟩ => by
        show p.val = if a = 1 then 0 else p.val
        split_ifs with ha
        · subst ha; have := p.isLt; omega
        · rfl)

/-- A column repeated across the columns of a matrix, [a, 1] → [a, b] along axes 0 and 1: entry (p, q) is the
    column's row p. -/
theorem colAcross_apply {a b : Nat}
    (h : (⟨2, ![a, 1]⟩ : Shape).BroadcastsInDim ⟨2, ![a, b]⟩ (![0, 1] : Fin 2 → Fin 2))
    (col : (⟨2, ![a, 1]⟩ : Shape).Idx → α) (p : Fin a) (q : Fin b) :
    broadcastInDim ⟨2, ![a, b]⟩ ![0, 1] h col (ix2 p q) = col (ix2 p (0 : Fin 1)) :=
  broadcastInDim_apply _ h col (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

end Cert.Lib.BroadcastInDim

end
-- ==== Proof.GraphOps.lean ====
/-
  The host's graph operations read at an entry.

  Both programs wrap negative index words the same way, gather rows of a node matrix by a column of index words, and sum
  rows into nodes by an accumulating scatter from zeros. Read entry by entry on the extended reals these are the
  specification's `wrapW`, `agg` and the edge count of `degree`: the scatter's zero start contributes nothing, the
  index column reads its word, and the gathered row is the row the wrapped word names.
-/
import Idealize.ShloMosaic.Lib.Pipeline.Value
import Idealize.ShloMosaic.Lib.IdealHost
import proofs.«141337_j45904610459949_2_alg».proof.Proof.Spec
import proofs.«141337_j45904610459949_2_alg».proof.Proof.LibScatterRows
import proofs.«141337_j45904610459949_2_alg».proof.Proof.LibFlatSegments
import proofs.«141337_j45904610459949_2_alg».proof.Proof.LibBroadcastInDim

noncomputable section

namespace Cert.Gcn

open Idealize.ShloMosaic Idealize.ShloMosaic.ValueIdx Idealize.ShloMosaic.GatherRows Idealize.ShloMosaic.ScatterRows
open Cert.Lib.BroadcastInDim

variable {E C : Nat}

/-- The index words wrapped the way both programs spell it: compare with the zero word, add the node count, select. -/
def wrapOps (h0 : (⟨0, ![]⟩ : Shape).BroadcastsInDim ⟨1, ![E]⟩ ![]) (w : Words E) : Words E :=
  select (cmpi .slt w (broadcastInDim ⟨1, ![E]⟩ ![] h0 (constantI ⟨0, ![]⟩ 32 0#32)))
    (addi w (broadcastInDim ⟨1, ![E]⟩ ![] h0 (constantI ⟨0, ![]⟩ 32 50000#32))) w

theorem wrapOps_apply (h0 : (⟨0, ![]⟩ : Shape).BroadcastsInDim ⟨1, ![E]⟩ ![]) (w : Words E) (e : Fin E) :
    wrapOps h0 w (ix1 e) = wrapW (w (ix1 e)) := by
  show Scalar.select (IntOp.cmpi .slt (w (ix1 e)) (broadcastInDim ⟨1, ![E]⟩ ![] h0 (constantI ⟨0, ![]⟩ 32 0#32) (ix1 e)))
    (IntOp.addi (w (ix1 e)) (broadcastInDim ⟨1, ![E]⟩ ![] h0 (constantI ⟨0, ![]⟩ 32 50000#32) (ix1 e))) (w (ix1 e)) = _
  rw [broadcastInDim_scalar_apply, broadcastInDim_scalar_apply]
  rfl

/-- Rows gathered by wrapped words and summed into nodes from zeros are the specification's aggregation. -/
theorem aggOps_eq
    (wfg : GatherDims.WF ⟨2, ![50000, C]⟩ ⟨2, ![E, 1]⟩ ⟨2, ![E, C]⟩ [1] [0] [] [0] [] 1 ![1, C])
    (wfs : ScatterDims.WF ⟨2, ![50000, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ (![0] : Fin 1 → Fin 2))
    (hz : (⟨0, ![]⟩ : Shape).BroadcastsInDim ⟨2, ![50000, C]⟩ ![])
    (g s : Words E) (X : Mat 50000 C) :
    Ideal.hostScatterAdd (ScatterRows.rowsDims 50000 E C wfs)
        (broadcastInDim ⟨2, ![50000, C]⟩ ![] hz (constant (F := Ideal) ⟨0, ![]⟩ .f32 0x00000000#32))
        (broadcastInDim ⟨2, ![E, 1]⟩ ![0] hc s)
        (Host.gather (GatherRows.rowsDims 50000 E C wfg) X (broadcastInDim ⟨2, ![E, 1]⟩ ![0] hc (wrapOps h0 g)))
      = agg g s X := by
  refine mat_ext fun p q => ?_
  refine (rows_scatterAdd_apply wfs _ _ _ p q).trans ?_
  rw [broadcastInDim_scalar_apply, constant_apply, Ideal.ofBits_zero_f32, zero_add]
  unfold agg
  rw [mat_apply]
  refine Finset.sum_congr rfl fun e _ => ?_
  rw [vecAsCol_apply hc s e, rows_gather_apply (by norm_num : 0 < 50000) wfg X _ e q, vecAsCol_apply hc _ e,
    wrapOps_apply h0 g e]
  rfl

/-- Ones summed into nodes from zeros count the edges landing on each node. -/
theorem countOps_apply
    (wfs : ScatterDims.WF ⟨1, ![50000]⟩ ⟨2, ![E, 1]⟩ ⟨1, ![E]⟩ [] [0] [0] 1)
    (h0E : (⟨0, ![]⟩ : Shape).BroadcastsInDim ⟨1, ![E]⟩ ![])
    (h0N : (⟨0, ![]⟩ : Shape).BroadcastsInDim ⟨1, ![50000]⟩ ![])
    (hc : (⟨1, ![E]⟩ : Shape).BroadcastsInDim ⟨2, ![E, 1]⟩ (![0] : Fin 1 → Fin 2))
    (d : Words E) (p : Fin 50000) :
    Ideal.hostScatterAdd (ScatterRows.countDims 50000 E wfs)
        (broadcastInDim ⟨1, ![50000]⟩ ![] h0N (constant (F := Ideal) ⟨0, ![]⟩ .f32 0x00000000#32))
        (broadcastInDim ⟨2, ![E, 1]⟩ ![0] hc d)
        (broadcastInDim ⟨1, ![E]⟩ ![] h0E (constant (F := Ideal) ⟨0, ![]⟩ .f32 0x3F800000#32)) (ix1 p)
      = ∑ e : Fin E, if (d (ix1 e)).toInt = (p.val : ℤ) then (1 : EReal) else 0 := by
  refine (Cert.LibFlatSegments.flat_scatterAdd_apply wfs _ _ _ p).trans ?_
  rw [broadcastInDim_scalar_apply, constant_apply, Ideal.ofBits_zero_f32, zero_add]
  refine Finset.sum_congr rfl fun e _ => ?_
  rw [vecAsCol_apply hc d e, broadcastInDim_scalar_apply, constant_apply, Ideal.ofBits_one_f32]

end Cert.Gcn

end
-- ==== Proof.GraphWords.lean ====
/-
  The two rows of an edge array and a bias row, read at a coordinate.

  The programs cut row 0 (the sources) and row 1 (the destinations) out of the [2, E] edge array as a [1, E] slab and
  flatten it to [E]; the result at e is the array's entry (0, e), respectively (1, e). A bias vector [b] laid out as a
  row [1, b] reads, at (0, q), the vector's entry q.
-/
import Idealize.ShloMosaic.Lib.Pipeline.Value
import proofs.«141337_j45904610459949_2_alg».proof.Proof.SpecIO

noncomputable section

namespace Cert.Gcn

open Idealize.ShloMosaic Idealize.ShloMosaic.ValueIdx

variable {E : Nat}

/-- Row 0 of the edge array, flattened, is the source words. -/
theorem srcWords_eq (ei : (⟨2, ![2, E]⟩ : Shape).Idx → BitVec 32)
    (hs : (⟨2, ![2, E]⟩ : Shape).Slices ![0, 0] ⟨2, ![1, E]⟩) (hc : (⟨2, ![1, E]⟩ : Shape).ShapeCasts ⟨1, ![E]⟩) :
    shapeCast ⟨1, ![E]⟩ (extractStridedSlice ⟨2, ![1, E]⟩ ![0, 0] ei hs) hc = srcW ei := by
  funext i
  rw [eq_ix1 i]
  refine (shapeCast_apply _ hc (ix1 (i 0)) (ix2 (0 : Fin 1) (i 0)) ?_).trans ?_
  · rw [Shape.rowMajor_val_two, Shape.rowMajor_val_one]
    show 0 * E + (i 0).val = (i 0).val
    rw [Nat.zero_mul, Nat.zero_add]
  · refine extractStridedSlice_apply _ ei hs (ix2 (0 : Fin 1) (i 0)) (ix2 (0 : Fin 2) ⟨(i 0).val, (i 0).isLt⟩) (fun a => ?_)
    match a with
    | ⟨0, _⟩ => rfl
    | ⟨1, _⟩ => show (i 0).val = 0 + (i 0).val; omega

/-- Row 1 of the edge array, flattened, is the destination words. -/
theorem dstWords_eq (ei : (⟨2, ![2, E]⟩ : Shape).Idx → BitVec 32)
    (hs : (⟨2, ![2, E]⟩ : Shape).Slices ![1, 0] ⟨2, ![1, E]⟩) (hc : (⟨2, ![1, E]⟩ : Shape).ShapeCasts ⟨1, ![E]⟩) :
    shapeCast ⟨1, ![E]⟩ (extractStridedSlice ⟨2, ![1, E]⟩ ![1, 0] ei hs) hc = dstW ei := by
  funext i
  rw [eq_ix1 i]
  refine (shapeCast_apply _ hc (ix1 (i 0)) (ix2 (0 : Fin 1) (i 0)) ?_).trans ?_
  · rw [Shape.rowMajor_val_two, Shape.rowMajor_val_one]
    show 0 * E + (i 0).val = (i 0).val
    rw [Nat.zero_mul, Nat.zero_add]
  · refine extractStridedSlice_apply _ ei hs (ix2 (0 : Fin 1) (i 0)) (ix2 (1 : Fin 2) ⟨(i 0).val, (i 0).isLt⟩) (fun a => ?_)
    match a with
    | ⟨0, _⟩ => rfl
    | ⟨1, _⟩ => show (i 0).val = 0 + (i 0).val; omega

/-- A vector laid out as a one-row matrix reads its entries along the row. -/
theorem rowF_castRow {b : Nat} (v : Arr b) (h : (⟨1, ![b]⟩ : Shape).ShapeCasts ⟨2, ![1, b]⟩) :
    rowF (shapeCast ⟨2, ![1, b]⟩ v h) = vecF v := by
  funext q
  refine shapeCast_apply v h (ix2 (0 : Fin 1) q) (ix1 q) ?_
  rw [Shape.rowMajor_val_one, Shape.rowMajor_val_two]
  show q.val = 0 * b + q.val
  rw [Nat.zero_mul, Nat.zero_add]

end Cert.Gcn

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.KernelStage0.lean ====
/-
  The host operations before the first region, read back.

  They cut the source and destination words out of the edge array, gather the node features by wrapped destination and
  sum them into the source nodes from zeros (the neighbour sum), count the edges landing on every node from zeros, add one
  for the node's own loop and take the inverse square root, kept as a column: the specification's `agg`, `degree` and
  `dis`.
-/
import proofs.«141337_j45904610459949_2_alg».proof.Proof.Gen.KernelIdeal.Frame
import proofs.«141337_j45904610459949_2_alg».proof.Proof.SpecIO
import proofs.«141337_j45904610459949_2_alg».proof.Proof.GraphOps
import proofs.«141337_j45904610459949_2_alg».proof.Proof.GraphWords
import proofs.«141337_j45904610459949_2_alg».proof.Proof.LibKeepdims
import Idealize.ShloMosaic.Lib.StableHlo.Run

set_option maxRecDepth 16384
set_option maxHeartbeats 2000000

noncomputable section

namespace Cert.KernelIdeal.Stages

open Cert.KernelIdeal Cert.KernelIdeal.Gen Cert.Gcn
open Idealize.ShloMosaic Idealize.ShloMosaic.TcCoe Idealize.ShloMosaic.ValueIdx Idealize.SL.Sem Idealize.ShloMosaic.StableHlo
open Idealize.ShloMosaic.ScatterRows

variable (m : (ℓ : Loc nD τ sig) → Buf (Elt Ideal) ℓ) (ρ : Dev nD → PrngReg)

/-- The edge words as the program was launched with them. -/
abbrev edges (c : Dev nD) : (⟨2, ![2, 800000]⟩ : Shape).Idx → BitVec 32 := m ((c : Thread nD τ).loc main_arg1)

/-- The source words. -/
theorem stage0_src (c : Dev nD) :
    (W1 (F := Ideal) m ρ c (Proc.devRef .tc main_v1) : Words 800000) = srcW (edges m c) := by
  dsimp only [W1]
  after_results
  exact srcWords_eq (edges m c) slices_S2x800000_S1x800000_0_0 shapeCasts_S1x800000_S800000

/-- The destination words. -/
theorem stage0_dst (c : Dev nD) :
    (W1 (F := Ideal) m ρ c (Proc.devRef .tc main_v3) : Words 800000) = dstW (edges m c) := by
  dsimp only [W1]
  after_results
  exact dstWords_eq (edges m c) slices_S2x800000_S1x800000_1_0 shapeCasts_S1x800000_S800000

/-- The neighbour sum of the node features. -/
theorem stage0_sum (c : Dev nD) :
    (W1 (F := Ideal) m ρ c (Proc.devRef .tc main_v13) : Mat 50000 64)
      = agg (dstW (edges m c)) (srcW (edges m c)) (m ((c : Thread nD τ).loc main_arg0)) := by
  dsimp only [W1]
  after_results
  show Ideal.hostScatterAdd (rowsDims 50000 800000 64 scatter_S50000x64_S800000x1_S800000x64_1_0_0_1_wf)
      (broadcastInDim ⟨2, ![50000, 64]⟩ ![] bcast_S_S50000x64 (constant (F := Ideal) ⟨0, ![]⟩ .f32 0x00000000#32))
      (broadcastInDim ⟨2, ![800000, 1]⟩ ![0] bcast_S800000_S800000x1_0
        (shapeCast ⟨1, ![800000]⟩ (extractStridedSlice ⟨2, ![1, 800000]⟩ ![0, 0] (edges m c) slices_S2x800000_S1x800000_0_0)
          shapeCasts_S1x800000_S800000))
      (Host.gather (GatherRows.rowsDims 50000 800000 64 gather_S50000x64_S800000x1_S800000x64_1_0_n_n_0_1_164_wf)
        (m ((c : Thread nD τ).loc main_arg0) : Mat 50000 64)
        (broadcastInDim ⟨2, ![800000, 1]⟩ ![0] bcast_S800000_S800000x1_0
          (wrapOps bcast_S_S800000
            (shapeCast ⟨1, ![800000]⟩ (extractStridedSlice ⟨2, ![1, 800000]⟩ ![1, 0] (edges m c) slices_S2x800000_S1x800000_1_0)
              shapeCasts_S1x800000_S800000)))) = _
  rw [srcWords_eq, dstWords_eq]
  exact aggOps_eq _ _ _ _ _ _ _ _

/-- The factor column: the inverse square root of each node's degree. -/
theorem stage0_dis (c : Dev nD) :
    colF (W1 (F := Ideal) m ρ c (Proc.devRef .tc main_v21) : (⟨2, ![50000, 1]⟩ : Shape).Idx → EReal) = dis (dstW (edges m c)) := by
  dsimp only [W1]
  after_results
  show colF (shapeCast ⟨2, ![50000, 1]⟩
      (Host.rsqrt (F := Ideal) (addf (F := Ideal)
        (Ideal.hostScatterAdd (countDims 50000 800000 scatter_S50000_S800000x1_S800000_n_0_0_1_wf)
            (broadcastInDim ⟨1, ![50000]⟩ ![] bcast_S_S50000 (constant (F := Ideal) ⟨0, ![]⟩ .f32 0x00000000#32))
            (broadcastInDim ⟨2, ![800000, 1]⟩ ![0] bcast_S800000_S800000x1_0
              (shapeCast ⟨1, ![800000]⟩ (extractStridedSlice ⟨2, ![1, 800000]⟩ ![1, 0] (edges m c) slices_S2x800000_S1x800000_1_0)
                shapeCasts_S1x800000_S800000))
            (broadcastInDim ⟨1, ![800000]⟩ ![] bcast_S_S800000 (constant (F := Ideal) ⟨0, ![]⟩ .f32 0x3F800000#32)))
        (broadcastInDim ⟨1, ![50000]⟩ ![] bcast_S_S50000 (constant (F := Ideal) ⟨0, ![]⟩ .f32 0x3F800000#32))) : FVec Ideal ⟨1, ![50000]⟩ .f32)
      shapeCasts_S50000_S50000x1) = _
  rw [dstWords_eq]
  funext p
  refine (Cert.Lib.Keepdims.castCol_apply _ _ p).trans ?_
  rw [show ∀ x : FVec Ideal ⟨1, ![50000]⟩ .f32, Host.rsqrt x (ix1 p) = Ideal.rsqrt (x (ix1 p)) from fun _ => rfl,
    addf_apply, countOps_apply, broadcastInDim_scalar_apply, constant_apply, Ideal.ofBits_one_f32]
  rfl

end Cert.KernelIdeal.Stages

end
-- ==== Proof.KernelStages.lean ====
/-
  The three stretches of host operations between the regions, read back.

  Each of them wraps the source words, gathers the rows of the scaled features the last region wrote, widens them, sums
  them into the destination nodes from zeros, and lays the layer's bias out as a row: the specification's aggregation
  of that matrix, and the bias.
-/
import proofs.«141337_j45904610459949_2_alg».proof.Proof.Gen.KernelIdeal.Frame
import proofs.«141337_j45904610459949_2_alg».proof.Proof.SpecIO
import proofs.«141337_j45904610459949_2_alg».proof.Proof.GraphOps
import proofs.«141337_j45904610459949_2_alg».proof.Proof.GraphWords
import Idealize.ShloMosaic.Lib.StableHlo.Run

set_option maxRecDepth 16384
set_option maxHeartbeats 1000000

noncomputable section

namespace Cert.KernelIdeal.Stages

open Cert.KernelIdeal Cert.KernelIdeal.Gen Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- After the stretch: the rows of the scaled features gathered by source and summed by destination. -/
theorem stage1_agg (c : Dev nD) :
    (W3 (F := Ideal) m ρ c (Proc.devRef .tc main_v33) : Mat 50000 128)
      = agg (W2 (F := Ideal) m ρ c (Proc.devRef .tc main_v1) : Words 800000)
          (W2 (F := Ideal) m ρ c (Proc.devRef .tc main_v3) : Words 800000)
          (W2 (F := Ideal) m ρ c (Proc.devRef .tc main_v22) : Mat 50000 128) := by
  dsimp only [W3]
  after_results
  exact aggOps_eq gather_S50000x128_S800000x1_S800000x128_1_0_n_n_0_1_1128_wf scatter_S50000x128_S800000x1_S800000x128_1_0_0_1_wf
    bcast_S_S800000 bcast_S800000_S800000x1_0 bcast_S_S50000x128 _ _ _

/-- After the stretch: the layer's bias laid out as a row. -/
theorem stage1_bias (c : Dev nD) :
    rowF (W3 (F := Ideal) m ρ c (Proc.devRef .tc main_v34) : (⟨2, ![1, 128]⟩ : Shape).Idx → EReal)
      = vecF (W2 (F := Ideal) m ρ c (Proc.devRef .tc main_arg4) : Arr 128) := by
  dsimp only [W3]
  after_results
  exact rowF_castRow _ _

/-- After the stretch: the rows of the scaled features gathered by source and summed by destination. -/
theorem stage3_agg (c : Dev nD) :
    (W6 (F := Ideal) m ρ c (Proc.devRef .tc main_v47) : Mat 50000 128)
      = agg (W5 (F := Ideal) m ρ c (Proc.devRef .tc main_v1) : Words 800000)
          (W5 (F := Ideal) m ρ c (Proc.devRef .tc main_v3) : Words 800000)
          (W5 (F := Ideal) m ρ c (Proc.devRef .tc main_v36) : Mat 50000 128) := by
  dsimp only [W6]
  after_results
  exact aggOps_eq gather_S50000x128_S800000x1_S800000x128_1_0_n_n_0_1_1128_wf scatter_S50000x128_S800000x1_S800000x128_1_0_0_1_wf
    bcast_S_S800000 bcast_S800000_S800000x1_0 bcast_S_S50000x128 _ _ _

/-- After the stretch: the layer's bias laid out as a row. -/
theorem stage3_bias (c : Dev nD) :
    rowF (W6 (F := Ideal) m ρ c (Proc.devRef .tc main_v48) : (⟨2, ![1, 128]⟩ : Shape).Idx → EReal)
      = vecF (W5 (F := Ideal) m ρ c (Proc.devRef .tc main_arg6) : Arr 128) := by
  dsimp only [W6]
  after_results
  exact rowF_castRow _ _

/-- After the stretch: the rows of the scaled features gathered by source and summed by destination. -/
theorem stage5_agg (c : Dev nD) :
    (W9 (F := Ideal) m ρ c (Proc.devRef .tc main_v61) : Mat 50000 128)
      = agg (W8 (F := Ideal) m ρ c (Proc.devRef .tc main_v1) : Words 800000)
          (W8 (F := Ideal) m ρ c (Proc.devRef .tc main_v3) : Words 800000)
          (W8 (F := Ideal) m ρ c (Proc.devRef .tc main_v50) : Mat 50000 128) := by
  dsimp only [W9]
  after_results
  exact aggOps_eq gather_S50000x128_S800000x1_S800000x128_1_0_n_n_0_1_1128_wf scatter_S50000x128_S800000x1_S800000x128_1_0_0_1_wf
    bcast_S_S800000 bcast_S800000_S800000x1_0 bcast_S_S50000x128 _ _ _

/-- After the stretch: the layer's bias laid out as a row. -/
theorem stage5_bias (c : Dev nD) :
    rowF (W9 (F := Ideal) m ρ c (Proc.devRef .tc main_v62) : (⟨2, ![1, 128]⟩ : Shape).Idx → EReal)
      = vecF (W8 (F := Ideal) m ρ c (Proc.devRef .tc main_arg8) : Arr 128) := by
  dsimp only [W9]
  after_results
  exact rowF_castRow _ _

end Cert.KernelIdeal.Stages

end
-- ==== Proof.KernelTailDef.lean ====
/-
  The read-out both programs end with, as one function of the node features: the rows of the last layer are summed
  per graph (every node's graph word says where its row lands), each graph's sum is divided by its node count (at least
  one), and the pooled rows go through the final linear map and its bias.
-/
import proofs.«141337_j45904610459949_2_alg».proof.KernelIdeal
import proofs.«141337_j45904610459949_2_alg».proof.Proof.Gen.KernelIdeal
import Idealize.ShloMosaic.PureOps.Ideal

noncomputable section

namespace Cert.KernelIdeal.Tail

open Cert.KernelIdeal Cert.KernelIdeal.Gen Idealize.ShloMosaic

/-- Mean pool over graphs, then the linear read-out. -/
def tailK (H : FVec Ideal S50000x128 .f32) (batch : IVec S50000 32) (lw : FVec Ideal S128x1 .f32) (lb : FVec Ideal S1 .f32) : FVec Ideal S256 .f32 :=
  shapeCast S256
    (addf
      (Host.dotGeneral dot_S256x128_S128x1_S256x1_1_0_0_1_n_n none
        (Host.divf
          (Host.scatterAdd scatter_S256x128_S50000x1_S50000x128_1_0_0_1
            (broadcastInDim S256x128 ![] bcast_S_S256x128 (constant (F := Ideal) S_ .f32 0x00000000#32))
            (broadcastInDim S50000x1 ![0] bcast_S50000_S50000x1_0 batch) H)
          (broadcastInDim S256x128 ![0, 1] bcast_S256x1_S256x128_0_1
            (broadcastInDim S256x1 ![0] bcast_S256_S256x1_0
              (maximumf
                (Host.scatterAdd scatter_S256_S50000x1_S50000_n_0_0_1
                  (broadcastInDim S256 ![] bcast_S_S256 (constant (F := Ideal) S_ .f32 0x00000000#32))
                  (broadcastInDim S50000x1 ![0] bcast_S50000_S50000x1_0 batch)
                  (broadcastInDim S50000 ![] bcast_S_S50000 (constant (F := Ideal) S_ .f32 0x3F800000#32)))
                (broadcastInDim S256 ![] bcast_S_S256 (constant (F := Ideal) S_ .f32 0x3F800000#32))))))
        lw)
      (broadcastInDim S256x1 ![0, 1] bcast_S1x1_S256x1_0_1 (broadcastInDim S1x1 ![1] bcast_S1_S1x1_1 lb)))
    shapeCasts_S256x1_S256

end Cert.KernelIdeal.Tail

end
-- ==== Proof.KernelStage6.lean ====
/-
  The host operations after the last region, read back: the mean pool over graphs and the linear read-out, applied to
  the last layer's output and to the graph words and read-out parameters as the stretch finds them.
-/
import proofs.«141337_j45904610459949_2_alg».proof.Proof.Gen.KernelIdeal.Frame
import proofs.«141337_j45904610459949_2_alg».proof.Proof.KernelTailDef
import Idealize.ShloMosaic.Lib.StableHlo.Run

set_option maxRecDepth 16384
set_option maxHeartbeats 2000000

noncomputable section

namespace Cert.KernelIdeal.Stages

open Cert.KernelIdeal Cert.KernelIdeal.Gen Cert.KernelIdeal.Tail
open Idealize.ShloMosaic Idealize.ShloMosaic.TcCoe Idealize.SL.Sem Idealize.ShloMosaic.StableHlo

variable (m : (ℓ : Loc nD τ sig) → Buf (Elt Ideal) ℓ) (ρ : Dev nD → PrngReg)

/-- The program's result is the read-out of the last layer's output. -/
theorem stage6 (c : Dev nD) :
    (W11 (F := Ideal) m ρ c (Proc.devRef .tc main_v80) : FVec Ideal S256 .f32)
      = tailK (W10 (F := Ideal) m ρ c (Proc.devRef .tc main_v63)) (W10 (F := Ideal) m ρ c (Proc.devRef .tc main_arg2))
          (W10 (F := Ideal) m ρ c (Proc.devRef .tc main_arg9)) (W10 (F := Ideal) m ρ c (Proc.devRef .tc main_arg10)) := by
  dsimp only [W11]
  after_results
  rfl

end Cert.KernelIdeal.Stages

end
-- ==== Proof.KernelNet.lean ====
/-
  The idealized kernel's result as the specification's network.

  Walking the boundary contents from the launch: the first stretch leaves the neighbour sum, the word vectors and the
  factor column; region 0 normalizes the rows, multiplies by the first weight and scales by the factor; each following
  stretch aggregates the scaled rows over the edges; each combining region adds the node's own scaled row, scales, adds
  the bias and rectifies; each multiplying region transforms and scales the features for the next layer; the last stretch
  is the read-out. Given what each region's array ends holding, the result is the read-out of `net` at the launch arrays.
-/
import proofs.«141337_j45904610459949_2_alg».proof.Proof.KernelKeep
import proofs.«141337_j45904610459949_2_alg».proof.Proof.KernelStage0
import proofs.«141337_j45904610459949_2_alg».proof.Proof.KernelStages
import proofs.«141337_j45904610459949_2_alg».proof.Proof.KernelStage6

set_option maxRecDepth 16384
set_option maxHeartbeats 1000000

noncomputable section

namespace Cert.KernelIdeal.Net

open Cert.KernelIdeal Cert.KernelIdeal.Gen Cert.KernelIdeal.Tail Cert.KernelIdeal.Stages Cert.KernelIdeal.Keep Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg)

/-- What a region of the first kind leaves: normalized rows times the weight, scaled. -/
abbrev R0 : Prop := ∀ (V : (c : Dev nD) → (b : Ref sig .tc) → Buf (Elt Ideal) ((c : Thread nD τ).loc b)) (c : Dev nD),
  ((dat0 (F := Ideal) V c).arrAt 3 cfg0.N : Mat 50000 128) = scaleRows (colF (V c main_v21)) (mm (normRows (V c main_v13)) (V c main_arg3))
abbrev R1 : Prop := ∀ (V : (c : Dev nD) → (b : Ref sig .tc) → Buf (Elt Ideal) ((c : Thread nD τ).loc b)) (c : Dev nD),
  ((dat1 (F := Ideal) V c).arrAt 4 cfg1.N : Mat 50000 128) = combine (colF (V c main_v21)) (V c main_v33) (V c main_v22) (rowF (V c main_v34))
abbrev R2 : Prop := ∀ (V : (c : Dev nD) → (b : Ref sig .tc) → Buf (Elt Ideal) ((c : Thread nD τ).loc b)) (c : Dev nD),
  ((dat2 (F := Ideal) V c).arrAt 3 cfg2.N : Mat 50000 128) = scaleRows (colF (V c main_v21)) (mm (V c main_v35) (V c main_arg5))
abbrev R3 : Prop := ∀ (V : (c : Dev nD) → (b : Ref sig .tc) → Buf (Elt Ideal) ((c : Thread nD τ).loc b)) (c : Dev nD),
  ((dat3 (F := Ideal) V c).arrAt 4 cfg3.N : Mat 50000 128) = combine (colF (V c main_v21)) (V c main_v47) (V c main_v36) (rowF (V c main_v48))
abbrev R4 : Prop := ∀ (V : (c : Dev nD) → (b : Ref sig .tc) → Buf (Elt Ideal) ((c : Thread nD τ).loc b)) (c : Dev nD),
  ((dat4 (F := Ideal) V c).arrAt 3 cfg4.N : Mat 50000 128) = scaleRows (colF (V c main_v21)) (mm (V c main_v49) (V c main_arg7))
abbrev R5 : Prop := ∀ (V : (c : Dev nD) → (b : Ref sig .tc) → Buf (Elt Ideal) ((c : Thread nD τ).loc b)) (c : Dev nD),
  ((dat5 (F := Ideal) V c).arrAt 4 cfg5.N : Mat 50000 128) = combine (colF (V c main_v21)) (V c main_v61) (V c main_v50) (rowF (V c main_v62))

/-- The factor of every node, from the destination words at launch. -/
abbrev D (c : Dev nD) : Fin 50000 → EReal := dis (dstW (edges m c))

/-- Region 0's output: the first layer's scaled transformed features. -/
theorem g0 (hr0 : R0) (c : Dev nD) :
    (W2 (F := Ideal) m ρ c (Proc.devRef .tc main_v22) : Mat 50000 128)
      = scaleRows (D m c) (mm (normRows (agg (dstW (edges m c)) (srcW (edges m c)) (m ((c : Thread nD τ).loc main_arg0)))) (m ((c : Thread nD τ).loc main_arg3))) := by
  refine (W2_arr m ρ c 3).trans ((hr0 (V1 m ρ) c).trans ?_)
  show scaleRows (colF (W1 m ρ c (Proc.devRef .tc main_v21))) (mm (normRows (W1 m ρ c (Proc.devRef .tc main_v13))) (W1 m ρ c (Proc.devRef .tc main_arg3))) = _
  rw [stage0_dis, stage0_sum, keep_main_arg3_1]

/-- A combining region's output from the scaled features `G` the region before the stretch wrote. -/
theorem h1 (hr0 : R0) (hr1 : R1) (c : Dev nD) :
    (W4 (F := Ideal) m ρ c (Proc.devRef .tc main_v35) : Mat 50000 128)
      = layer (D m c) (srcW (edges m c)) (dstW (edges m c))
          (mm (normRows (agg (dstW (edges m c)) (srcW (edges m c)) (m ((c : Thread nD τ).loc main_arg0)))) (m ((c : Thread nD τ).loc main_arg3))) (vecF (m ((c : Thread nD τ).loc main_arg4))) := by
  refine (W4_arr m ρ c 4).trans ((hr1 (V3 m ρ) c).trans ?_)
  show combine (colF (W3 m ρ c (Proc.devRef .tc main_v21))) (W3 m ρ c (Proc.devRef .tc main_v33)) (W3 m ρ c (Proc.devRef .tc main_v22)) (rowF (W3 m ρ c (Proc.devRef .tc main_v34))) = _
  rw [keep_main_v21_3, stage0_dis, stage1_agg, stage1_bias, keep_main_v22_3, keep_main_v1_2, keep_main_v3_2, stage0_src, stage0_dst,
    keep_main_arg4_2, g0 m ρ hr0 c]
  rfl

theorem g1 (hr0 : R0) (hr1 : R1) (hr2 : R2) (c : Dev nD) :
    (W5 (F := Ideal) m ρ c (Proc.devRef .tc main_v36) : Mat 50000 128)
      = scaleRows (D m c) (mm (W4 (F := Ideal) m ρ c (Proc.devRef .tc main_v35) : Mat 50000 128) (m ((c : Thread nD τ).loc main_arg5))) := by
  refine (W5_arr m ρ c 3).trans ((hr2 (V4 m ρ) c).trans ?_)
  show scaleRows (colF (W4 m ρ c (Proc.devRef .tc main_v21))) (mm (W4 m ρ c (Proc.devRef .tc main_v35)) (W4 m ρ c (Proc.devRef .tc main_arg5))) = _
  rw [keep_main_v21_4, stage0_dis, keep_main_arg5_4]

theorem h2 (hr3 : R3) (c : Dev nD) :
    (W7 (F := Ideal) m ρ c (Proc.devRef .tc main_v49) : Mat 50000 128)
      = combine (D m c) (agg (srcW (edges m c)) (dstW (edges m c)) (W5 (F := Ideal) m ρ c (Proc.devRef .tc main_v36) : Mat 50000 128))
          (W5 (F := Ideal) m ρ c (Proc.devRef .tc main_v36) : Mat 50000 128) (vecF (m ((c : Thread nD τ).loc main_arg6))) := by
  refine (W7_arr m ρ c 4).trans ((hr3 (V6 m ρ) c).trans ?_)
  show combine (colF (W6 m ρ c (Proc.devRef .tc main_v21))) (W6 m ρ c (Proc.devRef .tc main_v47)) (W6 m ρ c (Proc.devRef .tc main_v36)) (rowF (W6 m ρ c (Proc.devRef .tc main_v48))) = _
  rw [keep_main_v21_6, stage0_dis, stage3_agg, stage3_bias, keep_main_v36_6, keep_main_v1_5, keep_main_v3_5, stage0_src, stage0_dst,
    keep_main_arg6_5]

theorem g2 (hr4 : R4) (c : Dev nD) :
    (W8 (F := Ideal) m ρ c (Proc.devRef .tc main_v50) : Mat 50000 128)
      = scaleRows (D m c) (mm (W7 (F := Ideal) m ρ c (Proc.devRef .tc main_v49) : Mat 50000 128) (m ((c : Thread nD τ).loc main_arg7))) := by
  refine (W8_arr m ρ c 3).trans ((hr4 (V7 m ρ) c).trans ?_)
  show scaleRows (colF (W7 m ρ c (Proc.devRef .tc main_v21))) (mm (W7 m ρ c (Proc.devRef .tc main_v49)) (W7 m ρ c (Proc.devRef .tc main_arg7))) = _
  rw [keep_main_v21_7, stage0_dis, keep_main_arg7_7]

theorem h3 (hr5 : R5) (c : Dev nD) :
    (W10 (F := Ideal) m ρ c (Proc.devRef .tc main_v63) : Mat 50000 128)
      = combine (D m c) (agg (srcW (edges m c)) (dstW (edges m c)) (W8 (F := Ideal) m ρ c (Proc.devRef .tc main_v50) : Mat 50000 128))
          (W8 (F := Ideal) m ρ c (Proc.devRef .tc main_v50) : Mat 50000 128) (vecF (m ((c : Thread nD τ).loc main_arg8))) := by
  refine (W10_arr m ρ c 4).trans ((hr5 (V9 m ρ) c).trans ?_)
  show combine (colF (W9 m ρ c (Proc.devRef .tc main_v21))) (W9 m ρ c (Proc.devRef .tc main_v61)) (W9 m ρ c (Proc.devRef .tc main_v50)) (rowF (W9 m ρ c (Proc.devRef .tc main_v62))) = _
  rw [keep_main_v21_9, stage0_dis, stage5_agg, stage5_bias, keep_main_v50_9, keep_main_v1_8, keep_main_v3_8, stage0_src, stage0_dst,
    keep_main_arg8_8]

/-- The kernel's result: the read-out of the three layers at the launch arrays. -/
theorem kernel_value (hr0 : R0) (hr1 : R1) (hr2 : R2) (hr3 : R3) (hr4 : R4) (hr5 : R5) (c : Dev nD) :
    (W11 (F := Ideal) m ρ c (Proc.devRef .tc main_v80) : FVec Ideal S256 .f32)
      = tailK (net (m ((c : Thread nD τ).loc main_arg0)) (srcW (edges m c)) (dstW (edges m c)) (m ((c : Thread nD τ).loc main_arg3)) (vecF (m ((c : Thread nD τ).loc main_arg4)))
            (m ((c : Thread nD τ).loc main_arg5)) (vecF (m ((c : Thread nD τ).loc main_arg6))) (m ((c : Thread nD τ).loc main_arg7)) (vecF (m ((c : Thread nD τ).loc main_arg8))))
          (m ((c : Thread nD τ).loc main_arg2)) (m ((c : Thread nD τ).loc main_arg9)) (m ((c : Thread nD τ).loc main_arg10)) := by
  rw [stage6, keep_main_arg2_10, keep_main_arg9_10, keep_main_arg10_10, h3 m ρ hr5 c, g2 m ρ hr4 c, h2 m ρ hr3 c, g1 m ρ hr0 hr1 hr2 c,
    h1 m ρ hr0 hr1 c]
  rfl

end Cert.KernelIdeal.Net

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.RegionBodies.lean ====
/-
  The three tile computations of the network's layers, read at an entry (p, q) of a tile of 5000 rows.

  A layer's first step multiplies a tile of node features by the layer's weight and scales every row by its node's
  factor; the first layer's tile is first divided, row by row, by the row's Euclidean norm. A layer's second step adds
  the aggregated tile and the node's own scaled tile, scales every row by its node's factor, adds the bias of the
  column and rectifies. On the extended reals the narrowing and widening of the number format are the identity, so each
  entry is the plain arithmetic expression of the entries it reads.
-/
import proofs.«141337_j45904610459949_2_alg».proof.Proof.Gen.KernelIdeal.Skeleton
import proofs.«141337_j45904610459949_2_alg».proof.Proof.LibKeepdims
import proofs.«141337_j45904610459949_2_alg».proof.Proof.LibMatmulPlain
import Idealize.ShloMosaic.Lib.ValueLayout
import Idealize.ShloMosaic.Lib.Pipeline.Value

noncomputable section

open scoped BigOperators

namespace Cert.KernelIdeal.Regions

open Cert.KernelIdeal Cert.KernelIdeal.Gen Idealize.ShloMosaic Idealize.ShloMosaic.ValueIdx
open Cert.Lib.Keepdims

/-- The zero offsets of a whole tile. -/
theorem zeroOffsets : (![0, 0] : Fin 2 → Nat) = fun _ => 0 := funext fun a => by fin_cases a <;> rfl

/-- Row `p` of tile `t` of 5000 rows is row `5000 t + p` of the array of 50000 rows. -/
def rowAt (t : Nat) (ht : t < 10) (p : Fin 5000) : Fin 50000 := ⟨t * 5000 + p.val, by have := p.isLt; omega⟩

theorem rowAt_val (t : Nat) (ht : t < 10) (p : Fin 5000) : (rowAt t ht p).val = t * 5000 + p.val := rfl

/-- The zero word of the rectifier reads 0. -/
theorem zeroWord : (FloatOps.ofBits .f32 0x00000000#32 : Ideal .f32) = 0 := Ideal.ofBits_zero_f32

/-- The bias-and-rectify body at an entry: the aggregated entry plus the node's own scaled entry, times the node's
    factor, plus the bias of the column, rectified. -/
theorem biasRelu1_apply (x0 : Vec Ideal S5000x128 .f32) (x1 : Vec Ideal S5000x128 .bf16) (x2 : Vec Ideal S5000x1 .f32)
    (x3 : Vec Ideal S1x128 .f32) (p : Fin 5000) (q : Fin 128) :
    k1_pay1 (F := Ideal) x0 x1 x2 x3 (ix2 p q)
      = max (x2 (ix2 p (0 : Fin 1)) * (x0 (ix2 p q) + x1 (ix2 p q)) + x3 (ix2 (0 : Fin 1) q)) 0 := by
  unfold k1_pay1
  simp only [shapeCast_self]
  rw [maximumf_apply, addf_apply, mulf_apply, addf_apply, extf_apply, broadcast_apply]
  rw [bcastCol_apply, broadcastTo_1b_ab_apply]
  exact congrArg (max _) zeroWord

theorem biasRelu3_apply (x0 : Vec Ideal S5000x128 .f32) (x1 : Vec Ideal S5000x128 .bf16) (x2 : Vec Ideal S5000x1 .f32)
    (x3 : Vec Ideal S1x128 .f32) (p : Fin 5000) (q : Fin 128) :
    k3_pay1 (F := Ideal) x0 x1 x2 x3 (ix2 p q)
      = max (x2 (ix2 p (0 : Fin 1)) * (x0 (ix2 p q) + x1 (ix2 p q)) + x3 (ix2 (0 : Fin 1) q)) 0 :=
  biasRelu1_apply x0 x1 x2 x3 p q

theorem biasRelu5_apply (x0 : Vec Ideal S5000x128 .f32) (x1 : Vec Ideal S5000x128 .bf16) (x2 : Vec Ideal S5000x1 .f32)
    (x3 : Vec Ideal S1x128 .f32) (p : Fin 5000) (q : Fin 128) :
    k5_pay1 (F := Ideal) x0 x1 x2 x3 (ix2 p q)
      = max (x2 (ix2 p (0 : Fin 1)) * (x0 (ix2 p q) + x1 (ix2 p q)) + x3 (ix2 (0 : Fin 1) q)) 0 :=
  biasRelu1_apply x0 x1 x2 x3 p q

/-- The product-and-scale body at an entry: the row of the features times the column of the weight, times the node's
    factor. -/
theorem matmulScaled2_apply (x0 : Vec Ideal S5000x128 .f32) (x1 : Vec Ideal S128x128 .f32) (x2 : Vec Ideal S5000x1 .f32)
    (p : Fin 5000) (q : Fin 128) :
    k2_pay1 (F := Ideal) x0 x1 x2 (ix2 p q)
      = x2 (ix2 p (0 : Fin 1)) * ∑ k : Fin 128, x0 (ix2 p k) * x1 (ix2 k q) := by
  unfold k2_pay1
  simp only [shapeCast_self]
  rw [truncf_apply, mulf_apply, bcastCol_apply]
  refine congrArg (x2 (ix2 p (0 : Fin 1)) * ·) ?_
  exact Cert.LibMatmulPlain.matmul_zero_apply (M := 5000) (K := 128) (N := 128)
    dot_S5000x128_S128x128_S5000x128_1_0_0_1_n_n_wf none _ _ p q

theorem matmulScaled4_apply (x0 : Vec Ideal S5000x128 .f32) (x1 : Vec Ideal S128x128 .f32) (x2 : Vec Ideal S5000x1 .f32)
    (p : Fin 5000) (q : Fin 128) :
    k4_pay1 (F := Ideal) x0 x1 x2 (ix2 p q)
      = x2 (ix2 p (0 : Fin 1)) * ∑ k : Fin 128, x0 (ix2 p k) * x1 (ix2 k q) :=
  matmulScaled2_apply x0 x1 x2 p q

/-- The normalize-product-and-scale body at an entry: the row of the features divided by its Euclidean norm, times the
    column of the weight, times the node's factor. -/
theorem normMatmulScaled_apply (x0 : Vec Ideal S5000x64 .f32) (x1 : Vec Ideal S64x128 .f32) (x2 : Vec Ideal S5000x1 .f32)
    (p : Fin 5000) (q : Fin 128) :
    k0_pay1 (F := Ideal) x0 x1 x2 (ix2 p q)
      = x2 (ix2 p (0 : Fin 1)) * ∑ k : Fin 64,
          Ideal.div (x0 (ix2 p k)) (Ideal.sqrt (∑ j : Fin 64, x0 (ix2 p j) * x0 (ix2 p j))) * x1 (ix2 k q) := by
  unfold k0_pay1
  simp only [shapeCast_self]
  rw [truncf_apply, mulf_apply, bcastCol_apply]
  refine congrArg (x2 (ix2 p (0 : Fin 1)) * ·) ?_
  refine (Cert.LibMatmulPlain.matmul_zero_apply (M := 5000) (K := 64) (N := 128)
    dot_S5000x64_S64x128_S5000x128_1_0_0_1_n_n_wf none _ _ p q).trans ?_
  refine Finset.sum_congr rfl fun k _ => ?_
  rw [truncf_apply, truncf_apply, divf_apply, bcastCol_apply]
  refine congrArg (fun z => Ideal.div (x0 (ix2 p k)) (Ideal.sqrt z) * x1 (ix2 k q)) ?_
  exact sumCol_apply (a := 5000) (b := 64) (mulf x0 x0) 0x00000000#32 reduces_S5000x64_S5000 (.inl rfl) rfl
    shapeCasts_S5000_S5000x1 p

end Cert.KernelIdeal.Regions

end
-- ==== Proof.Region0.lean ====
/-
  Step 0 of the tiled program, a layer's first half, as one function of the arrays it finds.

  The step runs over ten tiles of 5000 rows. At a tile it reads the tile of the node features, the whole weight and the
  tile of the nodes' factors, and writes the tile of the result: entry (p, q) is the row of the features,
  divided by its Euclidean norm, times
  column q of the weight, times the node's factor. Every row of the 50000 lies in exactly the tile of its quotient by
  5000, so after the ten tiles the output array is the normalized features times the weight with every row scaled by its
  node's factor, entry by entry.
-/
import proofs.«141337_j45904610459949_2_alg».proof.Proof.Gen.KernelIdeal.Frame
import proofs.«141337_j45904610459949_2_alg».proof.Proof.Spec
import proofs.«141337_j45904610459949_2_alg».proof.Proof.SpecIO
import proofs.«141337_j45904610459949_2_alg».proof.Proof.RegionBodies
import Idealize.ShloMosaic.Lib.Pipeline.Value

set_option maxRecDepth 16384

noncomputable section

open scoped BigOperators

namespace Cert.KernelIdeal.Regions

open Cert.KernelIdeal Cert.KernelIdeal.Gen Cert.Gcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the tiles of this step sit: the row tiles follow the grid point, the weight is whole. -/
theorem tiles0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The grid has ten points. -/
theorem points0 (t : Fin cfg0.N) : t.val < 10 := by have h : cfg0.N = 10 := N_0; have := t.isLt; omega

/-- The tile of the features at a grid point, read at an entry. -/
theorem featTile0 (c : Dev nD) (t : Fin cfg0.N) (p : Fin 5000) (k : Fin 64) :
    (iblk0 V c 0 t : Vec Ideal S5000x64 .f32) (ix2 p k) = (V c main_v13 : Mat 50000 64) (ix2 (rowAt t.val (points0 t) p) k) := by
  obtain ⟨e0, e1, -⟩ := tiles0 t
  unfold iblk0
  rw [View.read_apply]
  show V c main_v13 _ = V c main_v13 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- The weight, whole at every grid point, read at an entry. -/
theorem weightTile0 (c : Dev nD) (t : Fin cfg0.N) (k : Fin 64) (q : Fin 128) :
    (iblk0 V c 1 t : Vec Ideal S64x128 .f32) (ix2 k q) = (V c main_arg3 : Mat 64 128) (ix2 k q) := by
  obtain ⟨-, -, e0, e1, -⟩ := tiles0 t
  unfold iblk0
  rw [View.read_apply]
  show V c main_arg3 _ = V c main_arg3 _
  congr 1
  funext a
  apply Fin.ext
  match a with
  | ⟨0, _⟩ => show win0_1.index t (0 : Fin 2) * 64 + 1 * k.val = k.val; rw [e0]; omega
  | ⟨1, _⟩ => show win0_1.index t (1 : Fin 2) * 128 + 1 * q.val = q.val; rw [e1]; omega

/-- The tile of the nodes' factors at a grid point, read at a row. -/
theorem factorTile0 (c : Dev nD) (t : Fin cfg0.N) (p : Fin 5000) :
    (iblk0 V c 2 t : Vec Ideal S5000x1 .f32) (ix2 p (0 : Fin 1)) = colF (V c main_v21) (rowAt t.val (points0 t) p) := by
  obtain ⟨-, -, -, -, e0, e1, -⟩ := tiles0 t
  unfold iblk0 colF
  rw [View.read_apply]
  show V c main_v21 _ = V c main_v21 _
  congr 1
  funext a
  apply Fin.ext
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- A normalized entry depends on its row only through the row's sum of squares. -/
theorem normEntry_congr {a w s s' : EReal} (h : s = s') :
    Ideal.div a (Ideal.sqrt s) * w = Ideal.div a (Ideal.sqrt s') * w := by rw [h]

/-- What a grid point writes back is its tile of the scaled product. -/
theorem written0 (c : Dev nD) (t : Fin cfg0.N) :
    (dat0 (F := Ideal) V c).flushed 3 t = ((cfg0.win 3).blk t).view.read (Elt Ideal)
      (scaleRows (colF (V c main_v21)) (mm (normRows (V c main_v13)) (V c main_arg3)) : Mat 50000 128) := by
  show (cfg0.win 3).cut (grid0.coords t) ((dat0 V c).after 3 t) = _
  rw [after0_3]
  unfold out0_3
  rw [View.canon_unit_zero zeroOffsets]
  simp only [View.ld_unit_zero (S := S5000x64) zeroOffsets, View.ld_unit_zero (S := S5000x1) zeroOffsets,
    View.ld_unit_zero (S := S64x128) zeroOffsets]
  obtain ⟨-, -, -, -, -, -, e0, e1⟩ := tiles0 t
  funext j
  obtain ⟨p, q, rfl⟩ : ∃ (p : Fin 5000) (q : Fin 128), j = ix2 p q := ⟨j 0, j 1, eq_ix2 j⟩
  have he : ((cfg0.win 3).blk t).view.emb (ix2 p q) = (ix2 (rowAt t.val (points0 t) p) q : S50000x128.Idx) := by
    funext a
    apply Fin.ext
    match a with
    | ⟨0, _⟩ => show win0_3.index t (0 : Fin 2) * 5000 + 1 * p.val = t.val * 5000 + p.val; rw [e0]; omega
    | ⟨1, _⟩ => show win0_3.index t (1 : Fin 2) * 128 + 1 * q.val = q.val; rw [e1]; omega
  show k0_pay1 (iblk0 V c 0 t) (iblk0 V c 1 t) (iblk0 V c 2 t) (ix2 p q)
    = (scaleRows (colF (V c main_v21)) (mm (normRows (V c main_v13)) (V c main_arg3)) : Mat 50000 128)
        (((cfg0.win 3).blk t).view.emb (ix2 p q))
  rw [he]
  refine (normMatmulScaled_apply _ _ _ p q).trans ?_
  simp only [scaleRows, mm, normRows, mat_apply]
  rw [factorTile0 V c t p]
  refine congrArg (colF (V c main_v21) (rowAt t.val (points0 t) p) * ·) (Finset.sum_congr rfl fun k _ => ?_)
  rw [featTile0 V c t p k, weightTile0 V c t k q]
  refine normEntry_congr (Finset.sum_congr rfl fun j _ => ?_)
  rw [featTile0 V c t p j]

/-- An index is in a grid point's tile iff each coordinate is in the tile's range. -/
theorem inTile0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v22).slice (win0_3.rect t)).set ↔ _
  rw [View.set_slice_whole, Rect.mem_set_unit]
  exact Iff.rfl

/-- Row r of the array lies in the tile of grid point r / 5000. -/
theorem covered0 (i : S50000x128.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  have ht : (i 0).val / 5000 < cfg0.N := by rw [hN]; omega
  obtain ⟨-, -, -, -, -, -, e0, e1⟩ := tiles0 ⟨(i 0).val / 5000, ht⟩
  refine ⟨⟨(i 0).val / 5000, ht⟩, flush0_3 _, ?_⟩
  rw [inTile0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-- After its ten grid points the step's output array is the scaled product. -/
theorem region0 (c : Dev nD) : ((dat0 (F := Ideal) V c).arrAt 3 cfg0.N : Mat 50000 128)
    = scaleRows (colF (V c main_v21)) (mm (normRows (V c main_v13)) (V c main_arg3)) :=
  (dat0 (F := Ideal) V c).arrAt_eq_of_cover 3 _ (fun t _ => written0 V c t) covered0

end Cert.KernelIdeal.Regions

end
-- ==== Proof.Region1.lean ====
/-
  Step 1 of the tiled program, a layer's second half, as one function of the arrays it finds.

  The step runs over ten tiles of 5000 rows. At a tile it reads the tile of the aggregated rows, the tile of the
  nodes' own scaled rows, the tile of the nodes' factors and the whole bias row, and writes the tile of the result:
  entry (p, q) is the aggregated entry plus the node's own entry, times the node's factor, plus the bias of column q,
  rectified. Every row of the 50000 lies in exactly the tile of its quotient by 5000, so after the ten tiles the
  output array is `combine` of the four arrays, entry by entry.
-/
import proofs.«141337_j45904610459949_2_alg».proof.Proof.Gen.KernelIdeal.Frame
import proofs.«141337_j45904610459949_2_alg».proof.Proof.Spec
import proofs.«141337_j45904610459949_2_alg».proof.Proof.SpecIO
import proofs.«141337_j45904610459949_2_alg».proof.Proof.RegionBodies
import Idealize.ShloMosaic.Lib.Pipeline.Value

set_option maxRecDepth 16384

noncomputable section

open scoped BigOperators

namespace Cert.KernelIdeal.Regions

open Cert.KernelIdeal Cert.KernelIdeal.Gen Cert.Gcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the tiles of this step sit: the row tiles follow the grid point, the bias row is whole. -/
theorem tiles1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The grid has ten points. -/
theorem points1 (t : Fin cfg1.N) : t.val < 10 := by have h : cfg1.N = 10 := N_1; have := t.isLt; omega

/-- The aggregated tile at a grid point, read at an entry. -/
theorem aggTile1 (c : Dev nD) (t : Fin cfg1.N) (p : Fin 5000) (q : Fin 128) :
    (iblk1 V c 0 t : Vec Ideal S5000x128 .f32) (ix2 p q) = (V c main_v33 : Mat 50000 128) (ix2 (rowAt t.val (points1 t) p) q) := by
  obtain ⟨e0, e1, -⟩ := tiles1 t
  unfold iblk1
  rw [View.read_apply]
  show V c main_v33 _ = V c main_v33 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- The tile of the nodes' own scaled rows at a grid point, read at an entry. -/
theorem selfTile1 (c : Dev nD) (t : Fin cfg1.N) (p : Fin 5000) (q : Fin 128) :
    (iblk1 V c 1 t : Vec Ideal S5000x128 .bf16) (ix2 p q) = (V c main_v22 : Mat 50000 128) (ix2 (rowAt t.val (points1 t) p) q) := by
  obtain ⟨-, -, e0, e1, -⟩ := tiles1 t
  unfold iblk1
  rw [View.read_apply]
  show V c main_v22 _ = V c main_v22 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 128 + 1 * q.val = q.val; rw [e1]; omega

/-- The tile of the nodes' factors at a grid point, read at a row. -/
theorem factorTile1 (c : Dev nD) (t : Fin cfg1.N) (p : Fin 5000) :
    (iblk1 V c 2 t : Vec Ideal S5000x1 .f32) (ix2 p (0 : Fin 1)) = colF (V c main_v21) (rowAt t.val (points1 t) p) := by
  obtain ⟨-, -, -, -, e0, e1, -⟩ := tiles1 t
  unfold iblk1 colF
  rw [View.read_apply]
  show V c main_v21 _ = V c main_v21 _
  congr 1
  funext a
  apply Fin.ext
  match a with
  | ⟨0, _⟩ => show win1_2.index t (0 : Fin 2) * 5000 + 1 * p.val = t.val * 5000 + p.val; rw [e0]; omega
  | ⟨1, _⟩ => show win1_2.index t (1 : Fin 2) * 1 + 1 * 0 = 0; rw [e1]

/-- The bias row, whole at every grid point, read at a column. -/
theorem biasTile1 (c : Dev nD) (t : Fin cfg1.N) (q : Fin 128) :
    (iblk1 V c 3 t : Vec Ideal S1x128 .f32) (ix2 (0 : Fin 1) q) = rowF (V c main_v34) q := by
  obtain ⟨-, -, -, -, -, -, e0, e1, -⟩ := tiles1 t
  unfold iblk1 rowF
  rw [View.read_apply]
  show V c main_v34 _ = V c main_v34 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- What a grid point writes back is its tile of the combined array. -/
theorem written1 (c : Dev nD) (t : Fin cfg1.N) :
    (dat1 (F := Ideal) V c).flushed 4 t = ((cfg1.win 4).blk t).view.read (Elt Ideal)
      (combine (colF (V c main_v21)) (V c main_v33) (V c main_v22) (rowF (V c main_v34)) : Mat 50000 128) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S1x128) zeroOffsets]
  obtain ⟨-, -, -, -, -, -, -, -, e0, e1⟩ := tiles1 t
  funext j
  obtain ⟨p, q, rfl⟩ : ∃ (p : Fin 5000) (q : Fin 128), j = ix2 p q := ⟨j 0, j 1, eq_ix2 j⟩
  have he : ((cfg1.win 4).blk t).view.emb (ix2 p q) = (ix2 (rowAt t.val (points1 t) p) q : S50000x128.Idx) := by
    funext a
    apply Fin.ext
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  show k1_pay1 (iblk1 V c 0 t) (iblk1 V c 1 t) (iblk1 V c 2 t) (iblk1 V c 3 t) (ix2 p q)
    = (combine (colF (V c main_v21)) (V c main_v33) (V c main_v22) (rowF (V c main_v34)) : Mat 50000 128)
        (((cfg1.win 4).blk t).view.emb (ix2 p q))
  rw [he]
  refine (biasRelu1_apply _ _ _ _ p q).trans ?_
  rw [aggTile1 V c t p q, selfTile1 V c t p q, factorTile1 V c t p, biasTile1 V c t q]
  rfl

/-- An index is in a grid point's tile iff each coordinate is in the tile's range. -/
theorem inTile1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v35).slice (win1_4.rect t)).set ↔ _
  rw [View.set_slice_whole, Rect.mem_set_unit]
  exact Iff.rfl

/-- Row r of the array lies in the tile of grid point r / 5000. -/
theorem covered1 (i : S50000x128.Idx) :
    ∃ t : Fin cfg1.N, (cfg1.win 4).flush t = true ∧ i ∈ ((cfg1.win 4).blk t).view.set := by
  have hN : cfg1.N = 10 := N_1
  have hi0 : (i 0).val < 50000 := (i 0).isLt
  have hi1 : (i 1).val < 128 := (i 1).isLt
  have ht : (i 0).val / 5000 < cfg1.N := by rw [hN]; omega
  obtain ⟨-, -, -, -, -, -, -, -, e0, e1⟩ := tiles1 ⟨(i 0).val / 5000, ht⟩
  refine ⟨⟨(i 0).val / 5000, ht⟩, flush1_4 _, ?_⟩
  rw [inTile1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e1]; omega

/-- After its ten grid points the step's output array is the combined array. -/
theorem region1 (c : Dev nD) : ((dat1 (F := Ideal) V c).arrAt 4 cfg1.N : Mat 50000 128)
    = combine (colF (V c main_v21)) (V c main_v33) (V c main_v22) (rowF (V c main_v34)) :=
  (dat1 (F := Ideal) V c).arrAt_eq_of_cover 4 _ (fun t _ => written1 V c t) covered1

end Cert.KernelIdeal.Regions

end
-- ==== Proof.Region2.lean ====
/-
  Step 2 of the tiled program, a layer's first half, as one function of the arrays it finds.

  The step runs over ten tiles of 5000 rows. At a tile it reads the tile of the node features, the whole weight and the
  tile of the nodes' factors, and writes the tile of the result: entry (p, q) is the row of the features times
  column q of the weight, times the node's factor. Every row of the 50000 lies in exactly the tile of its quotient by
  5000, so after the ten tiles the output array is the features times the weight with every row scaled by its
  node's factor, entry by entry.
-/
import proofs.«141337_j45904610459949_2_alg».proof.Proof.Gen.KernelIdeal.Frame
import proofs.«141337_j45904610459949_2_alg».proof.Proof.Spec
import proofs.«141337_j45904610459949_2_alg».proof.Proof.SpecIO
import proofs.«141337_j45904610459949_2_alg».proof.Proof.RegionBodies
import Idealize.ShloMosaic.Lib.Pipeline.Value

set_option maxRecDepth 16384

noncomputable section

open scoped BigOperators

namespace Cert.KernelIdeal.Regions

open Cert.KernelIdeal Cert.KernelIdeal.Gen Cert.Gcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the tiles of this step sit: the row tiles follow the grid point, the weight is whole. -/
theorem tiles2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The grid has ten points. -/
theorem points2 (t : Fin cfg2.N) : t.val < 10 := by have h : cfg2.N = 10 := N_2; have := t.isLt; omega

/-- The tile of the features at a grid point, read at an entry. -/
theorem featTile2 (c : Dev nD) (t : Fin cfg2.N) (p : Fin 5000) (k : Fin 128) :
    (iblk2 V c 0 t : Vec Ideal S5000x128 .f32) (ix2 p k) = (V c main_v35 : Mat 50000 128) (ix2 (rowAt t.val (points2 t) p) k) := by
  obtain ⟨e0, e1, -⟩ := tiles2 t
  unfold iblk2
  rw [View.read_apply]
  show V c main_v35 _ = V c main_v35 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The weight, whole at every grid point, read at an entry. -/
theorem weightTile2 (c : Dev nD) (t : Fin cfg2.N) (k : Fin 128) (q : Fin 128) :
    (iblk2 V c 1 t : Vec Ideal S128x128 .f32) (ix2 k q) = (V c main_arg5 : Mat 128 128) (ix2 k q) := by
  obtain ⟨-, -, e0, e1, -⟩ := tiles2 t
  unfold iblk2
  rw [View.read_apply]
  show V c main_arg5 _ = V c main_arg5 _
  congr 1
  funext a
  apply Fin.ext
  match a with
  | ⟨0, _⟩ => show win2_1.index t (0 : Fin 2) * 128 + 1 * k.val = k.val; rw [e0]; omega
  | ⟨1, _⟩ => show win2_1.index t (1 : Fin 2) * 128 + 1 * q.val = q.val; rw [e1]; omega

/-- The tile of the nodes' factors at a grid point, read at a row. -/
theorem factorTile2 (c : Dev nD) (t : Fin cfg2.N) (p : Fin 5000) :
    (iblk2 V c 2 t : Vec Ideal S5000x1 .f32) (ix2 p (0 : Fin 1)) = colF (V c main_v21) (rowAt t.val (points2 t) p) := by
  obtain ⟨-, -, -, -, e0, e1, -⟩ := tiles2 t
  unfold iblk2 colF
  rw [View.read_apply]
  show V c main_v21 _ = V c main_v21 _
  congr 1
  funext a
  apply Fin.ext
  match a with
  | ⟨0, _⟩ => show win2_2.index t (0 : Fin 2) * 5000 + 1 * p.val = t.val * 5000 + p.val; rw [e0]; omega
  | ⟨1, _⟩ => show win2_2.index t (1 : Fin 2) * 1 + 1 * 0 = 0; rw [e1]

/-- What a grid point writes back is its tile of the scaled product. -/
theorem written2 (c : Dev nD) (t : Fin cfg2.N) :
    (dat2 (F := Ideal) V c).flushed 3 t = ((cfg2.win 3).blk t).view.read (Elt Ideal)
      (scaleRows (colF (V c main_v21)) (mm (V c main_v35) (V c main_arg5)) : Mat 50000 128) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S5000x1) zeroOffsets,
    View.ld_unit_zero (S := S128x128) zeroOffsets]
  obtain ⟨-, -, -, -, -, -, e0, e1⟩ := tiles2 t
  funext j
  obtain ⟨p, q, rfl⟩ : ∃ (p : Fin 5000) (q : Fin 128), j = ix2 p q := ⟨j 0, j 1, eq_ix2 j⟩
  have he : ((cfg2.win 3).blk t).view.emb (ix2 p q) = (ix2 (rowAt t.val (points2 t) p) q : S50000x128.Idx) := by
    funext a
    apply Fin.ext
    match a with
    | ⟨0, _⟩ => show win2_3.index t (0 : Fin 2) * 5000 + 1 * p.val = t.val * 5000 + p.val; rw [e0]; omega
    | ⟨1, _⟩ => show win2_3.index t (1 : Fin 2) * 128 + 1 * q.val = q.val; rw [e1]; omega
  show k2_pay1 (iblk2 V c 0 t) (iblk2 V c 1 t) (iblk2 V c 2 t) (ix2 p q)
    = (scaleRows (colF (V c main_v21)) (mm (V c main_v35) (V c main_arg5)) : Mat 50000 128)
        (((cfg2.win 3).blk t).view.emb (ix2 p q))
  rw [he]
  refine (matmulScaled2_apply _ _ _ p q).trans ?_
  simp only [scaleRows, mm, mat_apply]
  rw [factorTile2 V c t p]
  refine congrArg (colF (V c main_v21) (rowAt t.val (points2 t) p) * ·) (Finset.sum_congr rfl fun k _ => ?_)
  rw [featTile2 V c t p k, weightTile2 V c t k q]

/-- An index is in a grid point's tile iff each coordinate is in the tile's range. -/
theorem inTile2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v36).slice (win2_3.rect t)).set ↔ _
  rw [View.set_slice_whole, Rect.mem_set_unit]
  exact Iff.rfl

/-- Row r of the array lies in the tile of grid point r / 5000. -/
theorem covered2 (i : S50000x128.Idx) :
    ∃ t : Fin cfg2.N, (cfg2.win 3).flush t = true ∧ i ∈ ((cfg2.win 3).blk t).view.set := by
  have hN : cfg2.N = 10 := N_2
  have hi0 : (i 0).val < 50000 := (i 0).isLt
  have hi1 : (i 1).val < 128 := (i 1).isLt
  have ht : (i 0).val / 5000 < cfg2.N := by rw [hN]; omega
  obtain ⟨-, -, -, -, -, -, e0, e1⟩ := tiles2 ⟨(i 0).val / 5000, ht⟩
  refine ⟨⟨(i 0).val / 5000, ht⟩, flush2_3 _, ?_⟩
  rw [inTile2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e1]; omega

/-- After its ten grid points the step's output array is the scaled product. -/
theorem region2 (c : Dev nD) : ((dat2 (F := Ideal) V c).arrAt 3 cfg2.N : Mat 50000 128)
    = scaleRows (colF (V c main_v21)) (mm (V c main_v35) (V c main_arg5)) :=
  (dat2 (F := Ideal) V c).arrAt_eq_of_cover 3 _ (fun t _ => written2 V c t) covered2

end Cert.KernelIdeal.Regions

end
-- ==== Proof.Region3.lean ====
/-
  Step 3 of the tiled program, a layer's second half, as one function of the arrays it finds.

  The step runs over ten tiles of 5000 rows. At a tile it reads the tile of the aggregated rows, the tile of the
  nodes' own scaled rows, the tile of the nodes' factors and the whole bias row, and writes the tile of the result:
  entry (p, q) is the aggregated entry plus the node's own entry, times the node's factor, plus the bias of column q,
  rectified. Every row of the 50000 lies in exactly the tile of its quotient by 5000, so after the ten tiles the
  output array is `combine` of the four arrays, entry by entry.
-/
import proofs.«141337_j45904610459949_2_alg».proof.Proof.Gen.KernelIdeal.Frame
import proofs.«141337_j45904610459949_2_alg».proof.Proof.Spec
import proofs.«141337_j45904610459949_2_alg».proof.Proof.SpecIO
import proofs.«141337_j45904610459949_2_alg».proof.Proof.RegionBodies
import Idealize.ShloMosaic.Lib.Pipeline.Value

set_option maxRecDepth 16384

noncomputable section

open scoped BigOperators

namespace Cert.KernelIdeal.Regions

open Cert.KernelIdeal Cert.KernelIdeal.Gen Cert.Gcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the tiles of this step sit: the row tiles follow the grid point, the bias row is whole. -/
theorem tiles3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The grid has ten points. -/
theorem points3 (t : Fin cfg3.N) : t.val < 10 := by have h : cfg3.N = 10 := N_3; have := t.isLt; omega

/-- The aggregated tile at a grid point, read at an entry. -/
theorem aggTile3 (c : Dev nD) (t : Fin cfg3.N) (p : Fin 5000) (q : Fin 128) :
    (iblk3 V c 0 t : Vec Ideal S5000x128 .f32) (ix2 p q) = (V c main_v47 : Mat 50000 128) (ix2 (rowAt t.val (points3 t) p) q) := by
  obtain ⟨e0, e1, -⟩ := tiles3 t
  unfold iblk3
  rw [View.read_apply]
  show V c main_v47 _ = V c main_v47 _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

/-- The tile of the nodes' own scaled rows at a grid point, read at an entry. -/
theorem selfTile3 (c : Dev nD) (t : Fin cfg3.N) (p : Fin 5000) (q : Fin 128) :
    (iblk3 V c 1 t : Vec Ideal S5000x128 .bf16) (ix2 p q) = (V c main_v36 : Mat 50000 128) (ix2 (rowAt t.val (points3 t) p) q) := by
  obtain ⟨-, -, e0, e1, -⟩ := tiles3 t
  unfold iblk3
  rw [View.read_apply]
  show V c main_v36 _ = V c main_v36 _
  congr 1
  funext a
  apply Fin.ext
  match a with
  | ⟨0, _⟩ => show win3_1.index t (0 : Fin 2) * 5000 + 1 * p.val = t.val * 5000 + p.val; rw [e0]; omega
  | ⟨1, _⟩ => show win3_1.index t (1 : Fin 2) * 128 + 1 * q.val = q.val; rw [e1]; omega

/-- The tile of the nodes' factors at a grid point, read at a row. -/
theorem factorTile3 (c : Dev nD) (t : Fin cfg3.N) (p : Fin 5000) :
    (iblk3 V c 2 t : Vec Ideal S5000x1 .f32) (ix2 p (0 : Fin 1)) = colF (V c main_v21) (rowAt t.val (points3 t) p) := by
  obtain ⟨-, -, -, -, e0, e1, -⟩ := tiles3 t
  unfold iblk3 colF
  rw [View.read_apply]
  show V c main_v21 _ = V c main_v21 _
  congr 1
  funext a
  apply Fin.ext
  match a with
  | ⟨0, _⟩ => show win3_2.index t (0 : Fin 2) * 5000 + 1 * p.val = t.val * 5000 + p.val; rw [e0]; omega
  | ⟨1, _⟩ => show win3_2.index t (1 : Fin 2) * 1 + 1 * 0 = 0; rw [e1]

/-- The bias row, whole at every grid point, read at a column. -/
theorem biasTile3 (c : Dev nD) (t : Fin cfg3.N) (q : Fin 128) :
    (iblk3 V c 3 t : Vec Ideal S1x128 .f32) (ix2 (0 : Fin 1) q) = rowF (V c main_v48) q := by
  obtain ⟨-, -, -, -, -, -, e0, e1, -⟩ := tiles3 t
  unfold iblk3 rowF
  rw [View.read_apply]
  show V c main_v48 _ = V c main_v48 _
  congr 1
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

/-- What a grid point writes back is its tile of the combined array. -/
theorem written3 (c : Dev nD) (t : Fin cfg3.N) :
    (dat3 (F := Ideal) V c).flushed 4 t = ((cfg3.win 4).blk t).view.read (Elt Ideal)
      (combine (colF (V c main_v21)) (V c main_v47) (V c main_v36) (rowF (V c main_v48)) : Mat 50000 128) := by
  show (cfg3.win 4).cut (grid3.coords t) ((dat3 V c).after 4 t) = _
  rw [after3_4]
  unfold out3_4
  rw [View.canon_unit_zero zeroOffsets]
  simp only [View.ld_unit_zero (S := S5000x128) zeroOffsets, View.ld_unit_zero (S := S5000x1) zeroOffsets,
    View.ld_unit_zero (S := S1x128) zeroOffsets]
  obtain ⟨-, -, -, -, -, -, -, -, e0, e1⟩ := tiles3 t
  funext j
  obtain ⟨p, q, rfl⟩ : ∃ (p : Fin 5000) (q : Fin 128), j = ix2 p q := ⟨j 0, j 1, eq_ix2 j⟩
  have he : ((cfg3.win 4).blk t).view.emb (ix2 p q) = (ix2 (rowAt t.val (points3 t) p) q : S50000x128.Idx) := by
    funext a
    apply Fin.ext
    match a with
    | ⟨0, _⟩ => show win3_4.index t (0 : Fin 2) * 5000 + 1 * p.val = t.val * 5000 + p.val; rw [e0]; omega
    | ⟨1, _⟩ => show win3_4.index t (1 : Fin 2) * 128 + 1 * q.val = q.val; rw [e1]; omega
  show k3_pay1 (iblk3 V c 0 t) (iblk3 V c 1 t) (iblk3 V c 2 t) (iblk3 V c 3 t) (ix2 p q)
    = (combine (colF (V c main_v21)) (V c main_v47) (V c main_v36) (rowF (V c main_v48)) : Mat 50000 128)
        (((cfg3.win 4).blk t).view.emb (ix2 p q))
  rw [he]
  refine (biasRelu3_apply _ _ _ _ p q).trans ?_
  rw [aggTile3 V c t p q, selfTile3 V c t p q, factorTile3 V c t p, biasTile3 V c t q]
  rfl

/-- An index is in a grid point's tile iff each coordinate is in the tile's range. -/
theorem inTile3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v49).slice (win3_4.rect t)).set ↔ _
  rw [View.set_slice_whole, Rect.mem_set_unit]
  exact Iff.rfl

/-- Row r of the array lies in the tile of grid point r / 5000. -/
theorem covered3 (i : S50000x128.Idx) :
    ∃ t : Fin cfg3.N, (cfg3.win 4).flush t = true ∧ i ∈ ((cfg3.win 4).blk t).view.set := by
  have hN : cfg3.N = 10 := N_3
  have hi0 : (i 0).val < 50000 := (i 0).isLt
  have hi1 : (i 1).val < 128 := (i 1).isLt
  have ht : (i 0).val / 5000 < cfg3.N := by rw [hN]; omega
  obtain ⟨-, -, -, -, -, -, -, -, e0, e1⟩ := tiles3 ⟨(i 0).val / 5000, ht⟩
  refine ⟨⟨(i 0).val / 5000, ht⟩, flush3_4 _, ?_⟩
  rw [inTile3]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    rw [e1]; omega

/-- After its ten grid points the step's output array is the combined array. -/
theorem region3 (c : Dev nD) : ((dat3 (F := Ideal) V c).arrAt 4 cfg3.N : Mat 50000 128)
    = combine (colF (V c main_v21)) (V c main_v47) (V c main_v36) (rowF (V c main_v48)) :=
  (dat3 (F := Ideal) V c).arrAt_eq_of_cover 4 _ (fun t _ => written3 V c t) covered3

end Cert.KernelIdeal.Regions

end
-- ==== Proof.Region4.lean ====
/-
  Step 4 of the tiled program, a layer's first half, as one function of the arrays it finds.

  The step runs over ten tiles of 5000 rows. At a tile it reads the tile of the node features, the whole weight and the
  tile of the nodes' factors, and writes the tile of the result: entry (p, q) is the row of the features times
  column q of the weight, times the node's factor. Every row of the 50000 lies in exactly the tile of its quotient by
  5000, so after the ten tiles the output array is the features times the weight with every row scaled by its
  node's factor, entry by entry.
-/
import proofs.«141337_j45904610459949_2_alg».proof.Proof.Gen.KernelIdeal.Frame
import proofs.«141337_j45904610459949_2_alg».proof.Proof.Spec
import proofs.«141337_j45904610459949_2_alg».proof.Proof.SpecIO
import proofs.«141337_j45904610459949_2_alg».proof.Proof.RegionBodies
import Idealize.ShloMosaic.Lib.Pipeline.Value

set_option maxRecDepth 16384

noncomputable section

open scoped BigOperators

namespace Cert.KernelIdeal.Regions

open Cert.KernelIdeal Cert.KernelIdeal.Gen Cert.Gcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the tiles of this step sit: the row tiles follow the grid point, the weight is whole. -/
theorem tiles4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The grid has ten points. -/
theorem points4 (t : Fin cfg4.N) : t.val < 10 := by have h : cfg4.N = 10 := N_4; have := t.isLt; omega

/-- The tile of the features at a grid point, read at an entry. -/
theorem featTile4 (c : Dev nD) (t : Fin cfg4.N) (p : Fin 5000) (k : Fin 128) :
    (iblk4 V c 0 t : Vec Ideal S5000x128 .f32) (ix2 p k) = (V c main_v49 : Mat 50000 128) (ix2 (rowAt t.val (points4 t) p) k) := by
  obtain ⟨e0, e1, -⟩ := tiles4 t
  unfold iblk4
  rw [View.read_apply]
  show V c main_v49 _ = V c main_v49 _
  congr 1
  funext a
  apply Fin.ext
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

/-- The weight, whole at every grid point, read at an entry. -/
theorem weightTile4 (c : Dev nD) (t : Fin cfg4.N) (k : Fin 128) (q : Fin 128) :
    (iblk4 V c 1 t : Vec Ideal S128x128 .f32) (ix2 k q) = (V c main_arg7 : Mat 128 128) (ix2 k q) := by
  obtain ⟨-, -, e0, e1, -⟩ := tiles4 t
  unfold iblk4
  rw [View.read_apply]
  show V c main_arg7 _ = V c main_arg7 _
  congr 1
  funext a
  apply Fin.ext
  match a with
  | ⟨0, _⟩ => show win4_1.index t (0 : Fin 2) * 128 + 1 * k.val = k.val; rw [e0]; omega
  | ⟨1, _⟩ => show win4_1.index t (1 : Fin 2) * 128 + 1 * q.val = q.val; rw [e1]; omega

/-- The tile of the nodes' factors at a grid point, read at a row. -/
theorem factorTile4 (c : Dev nD) (t : Fin cfg4.N) (p : Fin 5000) :
    (iblk4 V c 2 t : Vec Ideal S5000x1 .f32) (ix2 p (0 : Fin 1)) = colF (V c main_v21) (rowAt t.val (points4 t) p) := by
  obtain ⟨-, -, -, -, e0, e1, -⟩ := tiles4 t
  unfold iblk4 colF
  rw [View.read_apply]
  show V c main_v21 _ = V c main_v21 _
  congr 1
  funext a
  apply Fin.ext
  match a with
  | ⟨0, _⟩ => show win4_2.index t (0 : Fin 2) * 5000 + 1 * p.val = t.val * 5000 + p.val; rw [e0]; omega
  | ⟨1, _⟩ => show win4_2.index t (1 : Fin 2) * 1 + 1 * 0 = 0; rw [e1]

/-- What a grid point writes back is its tile of the scaled product. -/
theorem written4 (c : Dev nD) (t : Fin cfg4.N) :
    (dat4 (F := Ideal) V c).flushed 3 t = ((cfg4.win 3).blk t).view.read (Elt Ideal)
      (scaleRows (colF (V c main_v21)) (mm (V c main_v49) (V c main_arg7)) : Mat 50000 128) := by
  show (cfg4.win 3).cut (grid4.coords t) ((dat4 V c).after 3 t) = _
  rw [after4_3]
  unfold out4_3
  rw [View.canon_unit_zero zeroOffsets]
  simp only [View.ld_unit_zero (S := S5000x128) zeroOffsets, View.ld_unit_zero (S := S5000x1) zeroOffsets,
    View.ld_unit_zero (S := S128x128) zeroOffsets]
  obtain ⟨-, -, -, -, -, -, e0, e1⟩ := tiles4 t
  funext j
  obtain ⟨p, q, rfl⟩ : ∃ (p : Fin 5000) (q : Fin 128), j = ix2 p q := ⟨j 0, j 1, eq_ix2 j⟩
  have he : ((cfg4.win 3).blk t).view.emb (ix2 p q) = (ix2 (rowAt t.val (points4 t) p) q : S50000x128.Idx) := by
    funext a
    apply Fin.ext
    match a with
    | ⟨0, _⟩ => show win4_3.index t (0 : Fin 2) * 5000 + 1 * p.val = t.val * 5000 + p.val; rw [e0]; omega
    | ⟨1, _⟩ => show win4_3.index t (1 : Fin 2) * 128 + 1 * q.val = q.val; rw [e1]; omega
  show k4_pay1 (iblk4 V c 0 t) (iblk4 V c 1 t) (iblk4 V c 2 t) (ix2 p q)
    = (scaleRows (colF (V c main_v21)) (mm (V c main_v49) (V c main_arg7)) : Mat 50000 128)
        (((cfg4.win 3).blk t).view.emb (ix2 p q))
  rw [he]
  refine (matmulScaled4_apply _ _ _ p q).trans ?_
  simp only [scaleRows, mm, mat_apply]
  rw [factorTile4 V c t p]
  refine congrArg (colF (V c main_v21) (rowAt t.val (points4 t) p) * ·) (Finset.sum_congr rfl fun k _ => ?_)
  rw [featTile4 V c t p k, weightTile4 V c t k q]

/-- An index is in a grid point's tile iff each coordinate is in the tile's range. -/
theorem inTile4 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v50).slice (win4_3.rect t)).set ↔ _
  rw [View.set_slice_whole, Rect.mem_set_unit]
  exact Iff.rfl

/-- Row r of the array lies in the tile of grid point r / 5000. -/
theorem covered4 (i : S50000x128.Idx) :
    ∃ t : Fin cfg4.N, (cfg4.win 3).flush t = true ∧ i ∈ ((cfg4.win 3).blk t).view.set := by
  have hN : cfg4.N = 10 := N_4
  have hi0 : (i 0).val < 50000 := (i 0).isLt
  have hi1 : (i 1).val < 128 := (i 1).isLt
  have ht : (i 0).val / 5000 < cfg4.N := by rw [hN]; omega
  obtain ⟨-, -, -, -, -, -, e0, e1⟩ := tiles4 ⟨(i 0).val / 5000, ht⟩
  refine ⟨⟨(i 0).val / 5000, ht⟩, flush4_3 _, ?_⟩
  rw [inTile4]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ (1 : Fin 2) * 128 ≤ (i 1).val
      ∧ (i 1).val < win4_3.index ⟨(i 0).val / 5000, ht⟩ (1 : Fin 2) * 128 + 128
    rw [e1]; omega

/-- After its ten grid points the step's output array is the scaled product. -/
theorem region4 (c : Dev nD) : ((dat4 (F := Ideal) V c).arrAt 3 cfg4.N : Mat 50000 128)
    = scaleRows (colF (V c main_v21)) (mm (V c main_v49) (V c main_arg7)) :=
  (dat4 (F := Ideal) V c).arrAt_eq_of_cover 3 _ (fun t _ => written4 V c t) covered4

end Cert.KernelIdeal.Regions

end
-- ==== Proof.Region5.lean ====
/-
  Step 5 of the tiled program, a layer's second half, as one function of the arrays it finds.

  The step runs over ten tiles of 5000 rows. At a tile it reads the tile of the aggregated rows, the tile of the
  nodes' own scaled rows, the tile of the nodes' factors and the whole bias row, and writes the tile of the result:
  entry (p, q) is the aggregated entry plus the node's own entry, times the node's factor, plus the bias of column q,
  rectified. Every row of the 50000 lies in exactly the tile of its quotient by 5000, so after the ten tiles the
  output array is `combine` of the four arrays, entry by entry.
-/
import proofs.«141337_j45904610459949_2_alg».proof.Proof.Gen.KernelIdeal.Frame
import proofs.«141337_j45904610459949_2_alg».proof.Proof.Spec
import proofs.«141337_j45904610459949_2_alg».proof.Proof.SpecIO
import proofs.«141337_j45904610459949_2_alg».proof.Proof.RegionBodies
import Idealize.ShloMosaic.Lib.Pipeline.Value

set_option maxRecDepth 16384

noncomputable section

open scoped BigOperators

namespace Cert.KernelIdeal.Regions

open Cert.KernelIdeal Cert.KernelIdeal.Gen Cert.Gcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the tiles of this step sit: the row tiles follow the grid point, the bias row is whole. -/
theorem tiles5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The grid has ten points. -/
theorem points5 (t : Fin cfg5.N) : t.val < 10 := by have h : cfg5.N = 10 := N_5; have := t.isLt; omega

/-- The aggregated tile at a grid point, read at an entry. -/
theorem aggTile5 (c : Dev nD) (t : Fin cfg5.N) (p : Fin 5000) (q : Fin 128) :
    (iblk5 V c 0 t : Vec Ideal S5000x128 .f32) (ix2 p q) = (V c main_v61 : Mat 50000 128) (ix2 (rowAt t.val (points5 t) p) q) := by
  obtain ⟨e0, e1, -⟩ := tiles5 t
  unfold iblk5
  rw [View.read_apply]
  show V c main_v61 _ = V c main_v61 _
  congr 1
  funext a
  apply Fin.ext
  match a with
  | ⟨0, _⟩ => show win5_0.index t (0 : Fin 2) * 5000 + 1 * p.val = t.val * 5000 + p.val; rw [e0]; omega
  | ⟨1, _⟩ => show win5_0.index t (1 : Fin 2) * 128 + 1 * q.val = q.val; rw [e1]; omega

/-- The tile of the nodes' own scaled rows at a grid point, read at an entry. -/
theorem selfTile5 (c : Dev nD) (t : Fin cfg5.N) (p : Fin 5000) (q : Fin 128) :
    (iblk5 V c 1 t : Vec Ideal S5000x128 .bf16) (ix2 p q) = (V c main_v50 : Mat 50000 128) (ix2 (rowAt t.val (points5 t) p) q) := by
  obtain ⟨-, -, e0, e1, -⟩ := tiles5 t
  unfold iblk5
  rw [View.read_apply]
  show V c main_v50 _ = V c main_v50 _
  congr 1
  funext a
  apply Fin.ext
  match a with
  | ⟨0, _⟩ => show win5_1.index t (0 : Fin 2) * 5000 + 1 * p.val = t.val * 5000 + p.val; rw [e0]; omega
  | ⟨1, _⟩ => show win5_1.index t (1 : Fin 2) * 128 + 1 * q.val = q.val; rw [e1]; omega

/-- The tile of the nodes' factors at a grid point, read at a row. -/
theorem factorTile5 (c : Dev nD) (t : Fin cfg5.N) (p : Fin 5000) :
    (iblk5 V c 2 t : Vec Ideal S5000x1 .f32) (ix2 p (0 : Fin 1)) = colF (V c main_v21) (rowAt t.val (points5 t) p) := by
  obtain ⟨-, -, -, -, e0, e1, -⟩ := tiles5 t
  unfold iblk5 colF
  rw [View.read_apply]
  show V c main_v21 _ = V c main_v21 _
  congr 1
  funext a
  apply Fin.ext
  match a with
  | ⟨0, _⟩ => show win5_2.index t (0 : Fin 2) * 5000 + 1 * p.val = t.val * 5000 + p.val; rw [e0]; omega
  | ⟨1, _⟩ => show win5_2.index t (1 : Fin 2) * 1 + 1 * 0 = 0; rw [e1]

/-- The bias row, whole at every grid point, read at a column. -/
theorem biasTile5 (c : Dev nD) (t : Fin cfg5.N) (q : Fin 128) :
    (iblk5 V c 3 t : Vec Ideal S1x128 .f32) (ix2 (0 : Fin 1) q) = rowF (V c main_v62) q := by
  obtain ⟨-, -, -, -, -, -, e0, e1, -⟩ := tiles5 t
  unfold iblk5 rowF
  rw [View.read_apply]
  show V c main_v62 _ = V c main_v62 _
  congr 1
  funext a
  apply Fin.ext
  match a with
  | ⟨0, _⟩ => show win5_3.index t (0 : Fin 2) * 1 + 1 * 0 = 0; rw [e0]
  | ⟨1, _⟩ => show win5_3.index t (1 : Fin 2) * 128 + 1 * q.val = q.val; rw [e1]; omega

/-- What a grid point writes back is its tile of the combined array. -/
theorem written5 (c : Dev nD) (t : Fin cfg5.N) :
    (dat5 (F := Ideal) V c).flushed 4 t = ((cfg5.win 4).blk t).view.read (Elt Ideal)
      (combine (colF (V c main_v21)) (V c main_v61) (V c main_v50) (rowF (V c main_v62)) : Mat 50000 128) := by
  show (cfg5.win 4).cut (grid5.coords t) ((dat5 V c).after 4 t) = _
  rw [after5_4]
  unfold out5_4
  rw [View.canon_unit_zero zeroOffsets]
  simp only [View.ld_unit_zero (S := S5000x128) zeroOffsets, View.ld_unit_zero (S := S5000x1) zeroOffsets,
    View.ld_unit_zero (S := S1x128) zeroOffsets]
  obtain ⟨-, -, -, -, -, -, -, -, e0, e1⟩ := tiles5 t
  funext j
  obtain ⟨p, q, rfl⟩ : ∃ (p : Fin 5000) (q : Fin 128), j = ix2 p q := ⟨j 0, j 1, eq_ix2 j⟩
  have he : ((cfg5.win 4).blk t).view.emb (ix2 p q) = (ix2 (rowAt t.val (points5 t) p) q : S50000x128.Idx) := by
    funext a
    apply Fin.ext
    match a with
    | ⟨0, _⟩ => show win5_4.index t (0 : Fin 2) * 5000 + 1 * p.val = t.val * 5000 + p.val; rw [e0]; omega
    | ⟨1, _⟩ => show win5_4.index t (1 : Fin 2) * 128 + 1 * q.val = q.val; rw [e1]; omega
  show k5_pay1 (iblk5 V c 0 t) (iblk5 V c 1 t) (iblk5 V c 2 t) (iblk5 V c 3 t) (ix2 p q)
    = (combine (colF (V c main_v21)) (V c main_v61) (V c main_v50) (rowF (V c main_v62)) : Mat 50000 128)
        (((cfg5.win 4).blk t).view.emb (ix2 p q))
  rw [he]
  refine (biasRelu5_apply _ _ _ _ p q).trans ?_
  rw [aggTile5 V c t p q, selfTile5 V c t p q, factorTile5 V c t p, biasTile5 V c t q]
  rfl

/-- An index is in a grid point's tile iff each coordinate is in the tile's range. -/
theorem inTile5 (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v63).slice (win5_4.rect t)).set ↔ _
  rw [View.set_slice_whole, Rect.mem_set_unit]
  exact Iff.rfl

/-- Row r of the array lies in the tile of grid point r / 5000. -/
theorem covered5 (i : S50000x128.Idx) :
    ∃ t : Fin cfg5.N, (cfg5.win 4).flush t = true ∧ i ∈ ((cfg5.win 4).blk t).view.set := by
  have hN : cfg5.N = 10 := N_5
  have hi0 : (i 0).val < 50000 := (i 0).isLt
  have hi1 : (i 1).val < 128 := (i 1).isLt
  have ht : (i 0).val / 5000 < cfg5.N := by rw [hN]; omega
  obtain ⟨-, -, -, -, -, -, -, -, e0, e1⟩ := tiles5 ⟨(i 0).val / 5000, ht⟩
  refine ⟨⟨(i 0).val / 5000, ht⟩, flush5_4 _, ?_⟩
  rw [inTile5]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_4.index ⟨(i 0).val / 5000, ht⟩ (1 : Fin 2) * 128 ≤ (i 1).val
      ∧ (i 1).val < win5_4.index ⟨(i 0).val / 5000, ht⟩ (1 : Fin 2) * 128 + 128
    rw [e1]; omega

/-- After its ten grid points the step's output array is the combined array. -/
theorem region5 (c : Dev nD) : ((dat5 (F := Ideal) V c).arrAt 4 cfg5.N : Mat 50000 128)
    = combine (colF (V c main_v21)) (V c main_v61) (V c main_v50) (rowF (V c main_v62)) :=
  (dat5 (F := Ideal) V c).arrAt_eq_of_cover 4 _ (fun t _ => written5 V c t) covered5

end Cert.KernelIdeal.Regions

end
-- ==== Proof.RefConvDef.lean ====
/-
  One convolution layer of the reference program as a function of its inputs.

  The reference appends the 50000 loop edges k → k to the 800000 edges (`loopCat`), wraps negative index words
  (`wrapR`), counts the edges landing on each node (`degR`), takes the inverse square root of the count where it is
  positive (`disR`), weighs every edge by the product of the factors at its two ends (`normR`), gathers the transformed
  rows by source, scales them by the edge weights, sums them into the destinations, adds the bias and rectifies (`convR`).
  The three layers of the program are this term at three different transformed feature matrices.
-/
import proofs.«141337_j45904610459949_2_alg».proof.ReferenceIdeal
import proofs.«141337_j45904610459949_2_alg».proof.Proof.Gen.ReferenceIdeal
import Idealize.ShloMosaic.PureOps.Ideal

noncomputable section

namespace Cert.ReferenceIdeal.Conv

open Cert.ReferenceIdeal Cert.ReferenceIdeal.Gen Idealize.ShloMosaic

/-- The edge words followed by the loop words 0, 1, …, 49999. -/
def loopCat (w : IVec S800000 32) : IVec S850000 32 :=
  concatenate S850000 0 [⟨S800000, w⟩, ⟨S50000, (iotaInDim S50000 32 0)⟩] concatenates_S800000_S50000_S850000_d0

/-- Negative index words count from the end. -/
def wrapR (w : IVec S850000 32) : IVec S850000 32 :=
  select (cmpi .slt w (broadcastInDim S850000 ![] bcast_S_S850000 (constantI S_ 32 0#32)))
    (addi w (broadcastInDim S850000 ![] bcast_S_S850000 (constantI S_ 32 50000#32))) w

/-- The number of edges, loops included, landing on each node. -/
def degR (dst : IVec S800000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (loopCat dst))
    (broadcastInDim S850000 ![] bcast_S_S850000 (constant (F := Ideal) S_ .f32 0x3F800000#32))

/-- The inverse square root of the count where it is positive, zero elsewhere. -/
def disR (dst : IVec S800000 32) : FVec Ideal S50000 .f32 :=
  select (cmpf (F := Ideal) .ogt (degR dst) (broadcastInDim S50000 ![] bcast_S_S50000 (constant (F := Ideal) S_ .f32 0x00000000#32)))
    (Host.rsqrt (maximumf (degR dst) (broadcastInDim S50000 ![] bcast_S_S50000 (constant (F := Ideal) S_ .f32 0x3F800000#32))))
    (broadcastInDim S50000 ![] bcast_S_S50000 (id (constant (F := Ideal) S_ .f32 0x00000000#32)))

/-- Every edge's weight: the product of the factors at its source and at its destination. -/
def normR (src dst : IVec S800000 32) : FVec Ideal S850000 .f32 :=
  mulf
    (Host.gather gather_S50000_S850000x1_S850000_n_0_n_n_0_1_1 (disR dst)
      (broadcastInDim S850000x1 ![0] bcast_S850000_S850000x1_0 (wrapR (loopCat src))))
    (Host.gather gather_S50000_S850000x1_S850000_n_0_n_n_0_1_1 (disR dst)
      (broadcastInDim S850000x1 ![0] bcast_S850000_S850000x1_0 (wrapR (loopCat dst))))

/-- The layer: weighted source rows summed into the destinations, plus the bias, rectified. -/
def convR (src dst : IVec S800000 32) (HW : FVec Ideal S50000x128 .f32) (b : FVec Ideal S128 .f32) : FVec Ideal S50000x128 .f32 :=
  maximumf
    (addf
      (Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 (loopCat dst))
        (mulf
          (broadcastInDim S850000x128 ![0, 1] bcast_S850000x1_S850000x128_0_1
            (broadcastInDim S850000x1 ![0] bcast_S850000_S850000x1_0 (normR src dst)))
          (Host.gather gather_S50000x128_S850000x1_S850000x128_1_0_n_n_0_1_1128 HW
            (broadcastInDim S850000x1 ![0] bcast_S850000_S850000x1_0 (wrapR (loopCat src))))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

end Cert.ReferenceIdeal.Conv

end
-- ==== Proof.LibSelfLoops.lean ====
/-
  Self-loops folded into an edge sum.

  A graph with E edges on N nodes gets one extra edge k → k per node. A sum over the E + N edges that land on a node
  p is then the sum over the original edges that land on p, plus the one self-loop term of p.
-/
import Mathlib.Algebra.BigOperators.Fin
import Mathlib.Data.BitVec

namespace Idealize.ShloMosaic.SelfLoops

/-- The edge sum with self-loops appended: the loop edges are the last `N` of `E + N`, and loop `k` lands on `p`
    exactly when `k = p`. -/
theorem sum_append_selfloops {M : Type} [AddCommMonoid M] {E N : ℕ} (hit : Fin (E + N) → Prop) [DecidablePred hit]
    (g : Fin (E + N) → M) (p : Fin N) (hloop : ∀ k : Fin N, hit (Fin.natAdd E k) ↔ k = p) :
    (∑ e : Fin (E + N), if hit e then g e else 0)
      = (∑ e : Fin E, if hit (Fin.castAdd N e) then g (Fin.castAdd N e) else 0) + g (Fin.natAdd E p) := by
  rw [Fin.sum_univ_add]
  congr 1
  simp only [hloop, Finset.sum_ite_eq', Finset.mem_univ, if_true]

/-- A small natural number as a 32-bit word reads back, signed, as itself. -/
theorem toInt_ofNat_small (k : ℕ) (hk : k < 2 ^ 31) : (BitVec.ofNat 32 k).toInt = (k : ℤ) := by
  have h1 : (BitVec.ofNat 32 k).toNat = k := by
    rw [BitVec.toNat_ofNat]; exact Nat.mod_eq_of_lt (by omega)
  rw [BitVec.toInt_eq_toNat_cond, h1]
  have : 2 * k < 4294967296 := by omega
  simp [this]

end Idealize.ShloMosaic.SelfLoops
-- ==== Proof.RefConvWords.lean ====
/-
  The reference's edge words with the self-loops appended, read one position at a time.

  The first 800000 positions of the appended list hold the edge words themselves; position 800000 + k holds the
  word of the natural number k, for k below 50000. A word that reads as a nonnegative integer is left alone by the
  wrap, a word that reads as the node p names the row p, and the loop word of k reads as k: so loop k is gathered from
  row k and lands on node k.
-/
import Idealize.ShloMosaic.Lib.Pipeline.Value
import Idealize.ShloMosaic.Lib.IdealHost
import proofs.«141337_j45904610459949_2_alg».proof.Proof.RefConvDef
import proofs.«141337_j45904610459949_2_alg».proof.Proof.Spec
import proofs.«141337_j45904610459949_2_alg».proof.Proof.GraphOps
import proofs.«141337_j45904610459949_2_alg».proof.Proof.LibSelfLoops

noncomputable section

namespace Cert.ReferenceIdeal.Conv

open Cert.ReferenceIdeal Cert.ReferenceIdeal.Gen Idealize.ShloMosaic Idealize.ShloMosaic.ValueIdx
open Idealize.ShloMosaic.GatherRows Idealize.ShloMosaic.SelfLoops Cert.Gcn

/-- A word that reads as a nonnegative integer is not below the zero word, so the wrap leaves it alone. -/
theorem wrapW_of_nonneg (v : BitVec 32) (h : 0 ≤ v.toInt) : wrapW v = v := by
  have hc : IntOp.cmpi .slt v 0#32 = 0#1 := by
    unfold IntOp.cmpi
    have hs : v.slt 0#32 = false := by
      rw [BitVec.slt_eq_decide]
      have h0 : (0#32 : BitVec 32).toInt = 0 := by decide
      rw [h0]
      exact decide_eq_false (not_lt.mpr h)
    show BitVec.ofBool (v.slt 0#32) = 0#1
    rw [hs]
    rfl
  unfold wrapW
  rw [hc, select_zero]

/-- A word that reads as the node p names the row p. -/
theorem rowOf_of_toInt (v : BitVec 32) (p : Fin 50000) (h : v.toInt = (p.val : ℤ)) : rowOf v = p := by
  unfold rowOf
  rw [wrapW_of_nonneg v (by rw [h]; exact Int.natCast_nonneg _)]
  refine Fin.ext ?_
  show min v.toInt.toNat (50000 - 1) = p.val
  rw [h, Int.toNat_natCast]
  have := p.isLt
  omega

/-- The loop word of a node reads, signed, as the node's number. -/
theorem loopWord_toInt (k : Fin 50000) : (BitVec.ofNat 32 k.val).toInt = (k.val : ℤ) :=
  toInt_ofNat_small k.val (by have := k.isLt; omega)

/-- The appended list at an edge position is the edge's word. -/
theorem loopCat_edge (w : Words 800000) (e : Fin 800000) :
    loopCat w (ix1 (Fin.castAdd 50000 e)) = w (ix1 e) :=
  concatenate_pair_apply_left (0 : Fin 1) w (iotaInDim S50000 32 0) concatenates_S800000_S50000_S850000_d0
    (ix1 (Fin.castAdd 50000 e)) rfl (ix1 e) (fun b => match b with | ⟨0, _⟩ => rfl)

/-- The appended list at a loop position is the loop's word. -/
theorem loopCat_loop (w : Words 800000) (k : Fin 50000) :
    loopCat w (ix1 (Fin.natAdd 800000 k)) = BitVec.ofNat 32 k.val :=
  (concatenate_pair_apply_right (0 : Fin 1) w (iotaInDim S50000 32 0) concatenates_S800000_S50000_S850000_d0
    (ix1 (Fin.natAdd 800000 k)) rfl rfl (ix1 k) (fun b hb => match b, hb with | ⟨0, _⟩, hb => absurd rfl hb)
    (by show k.val + 800000 = 800000 + k.val; omega)).trans rfl

/-- The reference's wrap read at a position is the specification's wrap of the word there. -/
theorem wrapR_apply (w : Words 850000) (e : Fin 850000) : wrapR w (ix1 e) = wrapW (w (ix1 e)) :=
  wrapOps_apply bcast_S_S850000 w e

end Cert.ReferenceIdeal.Conv

end
-- ==== Proof.RefConvDeg.lean ====
/-
  The reference's degree and per-node factor, read at a node.

  Ones summed into the landing nodes of the 850000 appended edges count, at node p, the original edges landing on p
  plus the one loop p → p: the specification's degree. A degree is a natural number plus one, so it is at least one:
  the reference's guard "where the count is positive" always holds, the maximum with one changes nothing, and the factor
  is the inverse square root of the degree — a nonnegative real number.
-/
import proofs.«141337_j45904610459949_2_alg».proof.Proof.RefConvWords
import proofs.«141337_j45904610459949_2_alg».proof.Proof.LibFlatSegments

noncomputable section

namespace Cert.ReferenceIdeal.Conv

open Cert.ReferenceIdeal Cert.ReferenceIdeal.Gen Idealize.ShloMosaic Idealize.ShloMosaic.ValueIdx
open Idealize.ShloMosaic.GatherRows Idealize.ShloMosaic.SelfLoops Cert.Gcn

/-- On the extended reals the host's accumulating scatter is the exact sum of the colliding updates. -/
theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

/-- On the extended reals the host's inverse square root of an array, read at an index. -/
theorem hostRsqrt_apply {s : Shape} {φ : FTy} (x : FVec Ideal s φ) (i : s.Idx) : Host.rsqrt x i = Ideal.rsqrt (x i) := rfl

/-- The reference's flat scatter has the dimension numbers of a count of index words. -/
theorem countRec_eq : scatter_S50000_S850000x1_S850000_n_0_0_1
    = ScatterRows.countDims 50000 850000 scatter_S50000_S850000x1_S850000_n_0_0_1_wf := rfl

/-- The reference's count at a node is the sum of ones over the appended edges landing there. -/
theorem degR_sum (dst : Words 800000) (p : Fin 50000) :
    degR dst (ix1 p) = ∑ e : Fin 850000, if (loopCat dst (ix1 e)).toInt = (p.val : ℤ) then (1 : EReal) else 0 := by
  unfold degR
  rw [hostScatterAdd_eq, countRec_eq]
  exact countOps_apply scatter_S50000_S850000x1_S850000_n_0_0_1_wf bcast_S_S850000 bcast_S_S50000
    bcast_S850000_S850000x1_0 (loopCat dst) p

/-- Loop k lands on node p exactly when k is p. -/
theorem loop_lands_iff (w : Words 800000) (p k : Fin 50000) :
    (loopCat w (ix1 (Fin.natAdd 800000 k))).toInt = (p.val : ℤ) ↔ k = p := by
  rw [loopCat_loop, loopWord_toInt]
  constructor
  · intro h; exact Fin.ext (by exact_mod_cast h)
  · intro h; rw [h]

/-- The reference's count at a node is the specification's degree. -/
theorem degR_apply (dst : Words 800000) (p : Fin 50000) : degR dst (ix1 p) = degree dst p := by
  rw [degR_sum]
  refine (sum_append_selfloops (E := 800000) (N := 50000)
    (fun e => (loopCat dst (ix1 e)).toInt = (p.val : ℤ)) (fun _ => (1 : EReal)) p (loop_lands_iff dst p)).trans ?_
  unfold degree
  refine congrArg (· + (1 : EReal)) (Finset.sum_congr rfl fun e _ => ?_)
  show (if (loopCat dst (ix1 (Fin.castAdd 50000 e))).toInt = (p.val : ℤ) then (1 : EReal) else 0) = _
  rw [loopCat_edge]

/-- A sum of zeros and ones is a natural number. -/
theorem count_eq_natCast {ι : Type} (s : Finset ι) (c : ι → Prop) [DecidablePred c] :
    ∃ n : ℕ, (∑ e ∈ s, if c e then (1 : EReal) else 0) = ((n : ℝ) : EReal) := by
  classical
  induction s using Finset.induction_on with
  | empty => exact ⟨0, by simp⟩
  | insert a s ha ih =>
    obtain ⟨n, hn⟩ := ih
    rw [Finset.sum_insert ha, hn]
    by_cases hc : c a
    · refine ⟨n + 1, ?_⟩
      rw [if_pos hc, ← EReal.coe_one, ← EReal.coe_add]
      push_cast
      rw [add_comm]
    · exact ⟨n, by rw [if_neg hc, zero_add]⟩

/-- A degree is a natural number plus one. -/
theorem degree_eq_coe (d : Words 800000) (p : Fin 50000) : ∃ n : ℕ, degree d p = (((n : ℝ) + 1 : ℝ) : EReal) := by
  obtain ⟨n, hn⟩ := count_eq_natCast Finset.univ (fun e : Fin 800000 => (d (ix1 e)).toInt = (p.val : ℤ))
  refine ⟨n, ?_⟩
  unfold degree
  rw [hn, EReal.coe_add, EReal.coe_one]

/-- A degree is at least one. -/
theorem one_le_degree (d : Words 800000) (p : Fin 50000) : 1 ≤ degree d p := by
  obtain ⟨n, hn⟩ := degree_eq_coe d p
  rw [hn, ← EReal.coe_one, EReal.coe_le_coe_iff]
  have : (0 : ℝ) ≤ n := Nat.cast_nonneg n
  linarith

/-- A node's factor is a nonnegative real number. -/
theorem dis_eq_coe (d : Words 800000) (p : Fin 50000) : ∃ r : ℝ, 0 ≤ r ∧ dis d p = (r : EReal) := by
  obtain ⟨n, hn⟩ := degree_eq_coe d p
  have hpos : (0 : ℝ) < (n : ℝ) + 1 := by
    have : (0 : ℝ) ≤ n := Nat.cast_nonneg n
    linarith
  refine ⟨(Real.sqrt ((n : ℝ) + 1))⁻¹, inv_nonneg.mpr (Real.sqrt_nonneg _), ?_⟩
  unfold dis
  rw [hn, Ideal.rsqrt_coe, if_neg (not_lt.mpr hpos.le), if_neg hpos.ne']

theorem dis_nonneg (d : Words 800000) (p : Fin 50000) : 0 ≤ dis d p := by
  obtain ⟨r, hr, h⟩ := dis_eq_coe d p
  rw [h]; exact EReal.coe_nonneg.mpr hr

theorem dis_ne_top (d : Words 800000) (p : Fin 50000) : dis d p ≠ ⊤ := by
  obtain ⟨r, _, h⟩ := dis_eq_coe d p
  rw [h]; exact EReal.coe_ne_top r

/-- A positive extended real compares greater than zero. -/
theorem cmpf_ogt_zero_of_pos (x : EReal) (h : 0 < x) :
    FloatOps.cmpf (F := Ideal) (φ := .f32) .ogt x (0 : EReal) = 1#1 := by
  show BitVec.ofBool (decide ((0 : EReal) < x)) = 1#1
  rw [decide_eq_true h]
  rfl

/-- The reference's factor at a node is the specification's: the guard holds and the maximum with one is idle. -/
theorem disR_apply (dst : Words 800000) (p : Fin 50000) : disR dst (ix1 p) = dis dst p := by
  unfold disR
  rw [select_apply, cmpf_apply, hostRsqrt_apply, maximumf_apply, degR_apply, broadcastInDim_scalar_apply,
    broadcastInDim_scalar_apply, constant_apply, constant_apply, Ideal.ofBits_zero_f32, Ideal.ofBits_one_f32]
  have h1 := one_le_degree dst p
  rw [cmpf_ogt_zero_of_pos _ (lt_of_lt_of_le zero_lt_one h1), select_one, max_eq_left h1]
  rfl

end Cert.ReferenceIdeal.Conv

end
-- ==== Proof.GcnLaw.lean ====
/-
  The law that joins the two spellings of a graph-convolution layer with self-loops.

  Write D for the per-node factor (a nonnegative, finite extended real), H for a row entry of the transformed
  features and, for a node p, let the edges that land on p carry the source's factor a e and the source's entry g e.
  One spelling scales every source row by its own factor first, sums the rows over the edges landing on p, adds p's own
  scaled row, and scales the total by D p. The other weighs every edge, and the self-loop p → p, by the product of the
  factors at its two ends before summing. The two agree on the extended reals for ANY entries (infinite ones included),
  because a nonnegative finite factor distributes over every sum there.
-/
import Mathlib.Data.EReal.Inv
import Mathlib.Algebra.BigOperators.Fin

namespace Cert.GcnLaw

open Finset

/-- A nonnegative finite factor distributes over a finite sum of extended reals, whatever the summands. -/
theorem mul_sum_of_nonneg {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The layer law at one entry: scale the sources, sum over the edges landing here, add the node's own scaled entry
    and scale by the node's factor `c` — or weigh every edge and the self-loop by the product of its two ends' factors. -/
theorem layer_entry {E : ℕ} (c : EReal) (h0 : 0 ≤ c) (ht : c ≠ ⊤) (hit : Fin E → Prop) [DecidablePred hit]
    (a g : Fin E → EReal) (hp : EReal) :
    c * ((0 + ∑ e, if hit e then a e * g e else 0) + c * hp)
      = 0 + ((∑ e, if hit e then (a e * c) * g e else 0) + (c * c) * hp) := by
  rw [zero_add, zero_add, EReal.left_distrib_of_nonneg_of_ne_top h0 ht, mul_sum_of_nonneg _ c h0 ht]
  refine congrArg₂ (· + ·) (Finset.sum_congr rfl fun e _ => ?_) (mul_assoc c c hp).symm
  split_ifs
  · exact (mul_left_comm c (a e) (g e)).trans (mul_assoc (a e) c (g e)).symm
  · exact mul_zero c

end Cert.GcnLaw
-- ==== Proof.RefConv.lean ====
/-
  One convolution layer of the reference, read entry by entry, is the specification's layer.

  At an entry (p, q) the reference sums, over the 850000 appended edges landing on p, the edge's weight times the
  gathered source entry; the weight is the product of the factors at the edge's two ends. An original edge landing on p
  has p's factor at its destination end, and the loop p → p is gathered from row p and weighs p's factor squared. So the
  sum is the edge sum with every term weighed by source factor times p's factor, plus p's factor squared times p's own
  entry — which, a factor being a nonnegative real, is p's factor times the sum of the scaled source rows and p's own
  scaled row: the specification's spelling.
-/
import proofs.«141337_j45904610459949_2_alg».proof.Proof.RefConvDeg
import proofs.«141337_j45904610459949_2_alg».proof.Proof.GcnLaw
import proofs.«141337_j45904610459949_2_alg».proof.Proof.LibGatherRows
import proofs.«141337_j45904610459949_2_alg».proof.Proof.LibScatterRows
import proofs.«141337_j45904610459949_2_alg».proof.Proof.LibFlatSegments
import proofs.«141337_j45904610459949_2_alg».proof.Proof.LibBroadcastInDim
import proofs.«141337_j45904610459949_2_alg».proof.Proof.SpecIO

noncomputable section

namespace Cert.ReferenceIdeal.Conv

open Cert.ReferenceIdeal Cert.ReferenceIdeal.Gen Idealize.ShloMosaic Idealize.ShloMosaic.ValueIdx
open Idealize.ShloMosaic.GatherRows Idealize.ShloMosaic.SelfLoops Cert.Gcn Cert.Lib.BroadcastInDim

/-- The reference's flat gather has the dimension numbers of a gather of a flat array by one index column. -/
theorem flatGatherRec_eq : gather_S50000_S850000x1_S850000_n_0_n_n_0_1_1
    = Cert.LibFlatSegments.flatDims 50000 850000 gather_S50000_S850000x1_S850000_n_0_n_n_0_1_1_wf := rfl

/-- The reference's row gather has the dimension numbers of a gather of rows by one index column. -/
theorem rowGatherRec_eq : gather_S50000x128_S850000x1_S850000x128_1_0_n_n_0_1_1128
    = Idealize.ShloMosaic.GatherRows.rowsDims 50000 850000 128 gather_S50000x128_S850000x1_S850000x128_1_0_n_n_0_1_1128_wf := rfl

/-- The reference's row scatter has the dimension numbers of a sum of rows into the rows one index column names. -/
theorem rowScatterRec_eq : scatter_S50000x128_S850000x1_S850000x128_1_0_0_1
    = Idealize.ShloMosaic.ScatterRows.rowsDims 50000 850000 128 scatter_S50000x128_S850000x1_S850000x128_1_0_0_1_wf := rfl

/-- A flat array gathered by the wrapped words: position e reads the element the word at e names. -/
theorem gatherFlat_apply (x : FVec Ideal S50000 .f32) (w : Words 850000) (e : Fin 850000) :
    Host.gather gather_S50000_S850000x1_S850000_n_0_n_n_0_1_1 x
        (broadcastInDim S850000x1 ![0] bcast_S850000_S850000x1_0 (wrapR w)) (ix1 e)
      = x (ix1 (rowOf (w (ix1 e)))) := by
  rw [flatGatherRec_eq, Cert.LibFlatSegments.flat_gather_apply (by norm_num : 0 < 50000),
    vecAsCol_apply bcast_S850000_S850000x1_0 _ e, wrapR_apply]
  rfl

/-- A matrix's rows gathered by the wrapped words: entry (e, q) reads entry q of the row the word at e names. -/
theorem gatherRows_apply (X : Mat 50000 128) (w : Words 850000) (e : Fin 850000) (q : Fin 128) :
    Host.gather gather_S50000x128_S850000x1_S850000x128_1_0_n_n_0_1_1128 X
        (broadcastInDim S850000x1 ![0] bcast_S850000_S850000x1_0 (wrapR w)) (ix2 e q)
      = X (ix2 (rowOf (w (ix1 e))) q) := by
  rw [rowGatherRec_eq, rows_gather_apply (by norm_num : 0 < 50000),
    vecAsCol_apply bcast_S850000_S850000x1_0 _ e, wrapR_apply]
  rfl

/-- Rows summed from zeros into the nodes a column of words lands on, read at an entry. -/
theorem scatterRows_apply (idx : Words 850000) (upd : FVec Ideal S850000x128 .f32) (p : Fin 50000) (q : Fin 128) :
    Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 idx) upd (ix2 p q)
      = 0 + ∑ e : Fin 850000, if (idx (ix1 e)).toInt = (p.val : ℤ) then upd (ix2 e q) else 0 := by
  rw [hostScatterAdd_eq, rowScatterRec_eq, Idealize.ShloMosaic.ScatterRows.rows_scatterAdd_apply,
    broadcastInDim_scalar_apply, constant_apply, Ideal.ofBits_zero_f32]
  refine congrArg (fun t => (0 : EReal) + t) (Finset.sum_congr rfl fun e _ => ?_)
  rw [vecAsCol_apply bcast_S850000_S850000x1_0 idx e]

/-- The bias vector laid out as a row and repeated down the rows: entry (p, q) is the bias at q. -/
theorem biasRow_apply (b : Arr 128) (p : Fin 50000) (q : Fin 128) :
    broadcastInDim S50000x128 ![0, 1] bcast_S1x128_S50000x128_0_1
        (broadcastInDim S1x128 ![1] bcast_S128_S1x128_1 b) (ix2 p q) = b (ix1 q) :=
  (broadcastInDim_apply _ bcast_S1x128_S50000x128_0_1 _ (ix2 p q) (ix2 (0 : Fin 1) q) (fun a => match a with
    | ⟨0, _⟩ => by show (0 : ℕ) = if (1 : ℕ) = 1 then 0 else p.val; rw [if_pos rfl]
    | ⟨1, _⟩ => by show q.val = if (128 : ℕ) = 1 then 0 else q.val; rw [if_neg (by norm_num)])).trans
  (broadcastInDim_apply _ bcast_S128_S1x128_1 b (ix2 (0 : Fin 1) q) (ix1 q) (fun a => match a with
    | ⟨0, _⟩ => by show q.val = if (128 : ℕ) = 1 then 0 else q.val; rw [if_neg (by norm_num)]))

/-- An edge's weight is the product of the factors of the rows its two words name. -/
theorem normR_apply (src dst : Words 800000) (e : Fin 850000) :
    normR src dst (ix1 e) = dis dst (rowOf (loopCat src (ix1 e))) * dis dst (rowOf (loopCat dst (ix1 e))) := by
  unfold normR
  rw [mulf_apply, gatherFlat_apply, gatherFlat_apply, disR_apply, disR_apply]

/-- The reference's layer at an entry: the weighted gathered entries summed over the appended edges landing on the
    row, plus the bias, rectified. -/
theorem convR_entry (src dst : Words 800000) (HW : Mat 50000 128) (b : Arr 128) (p : Fin 50000) (q : Fin 128) :
    convR src dst HW b (ix2 p q)
      = max ((0 + ∑ e : Fin 850000, if (loopCat dst (ix1 e)).toInt = (p.val : ℤ)
            then (dis dst (rowOf (loopCat src (ix1 e))) * dis dst (rowOf (loopCat dst (ix1 e))))
              * HW (ix2 (rowOf (loopCat src (ix1 e))) q) else 0) + b (ix1 q)) 0 := by
  unfold convR
  rw [maximumf_apply, addf_apply, broadcastInDim_scalar_apply, constant_apply, Ideal.ofBits_zero_f32, biasRow_apply,
    scatterRows_apply]
  refine congrArg (fun t => max (((0 : EReal) + t) + b (ix1 q)) 0) (Finset.sum_congr rfl fun e _ => ?_)
  rw [mulf_apply, colAcross_apply bcast_S850000x1_S850000x128_0_1 _ e q,
    vecAsCol_apply bcast_S850000_S850000x1_0 _ e, normR_apply, gatherRows_apply]

/-- The specification's layer at an entry. -/
theorem layer_apply {E C : Nat} (D : Fin 50000 → EReal) (s d : Words E) (X : Mat 50000 C) (b : Fin C → EReal)
    (p : Fin 50000) (q : Fin C) :
    layer D s d X b (ix2 p q)
      = max (D p * ((∑ e : Fin E, if (d (ix1 e)).toInt = (p.val : ℤ)
            then D (rowOf (s (ix1 e))) * X (ix2 (rowOf (s (ix1 e))) q) else 0) + D p * X (ix2 p q)) + b q) 0 := rfl

/-- THE LAYER: the reference's convolution is the specification's layer at the destination degrees' factors. -/
theorem convR_eq (src dst : Cert.Gcn.Words 800000) (HW : Cert.Gcn.Mat 50000 128) (b : Cert.Gcn.Arr 128) :
    convR src dst HW b = Cert.Gcn.layer (Cert.Gcn.dis dst) src dst HW (Cert.Gcn.vecF b) := by
  refine mat_ext fun p q => ?_
  rw [convR_entry, layer_apply]
  refine congrArg (fun t => max (t + b (ix1 q)) 0) ?_
  refine (congrArg (fun t => (0 : EReal) + t) (sum_append_selfloops (E := 800000) (N := 50000)
    (fun e => (loopCat dst (ix1 e)).toInt = (p.val : ℤ))
    (fun e => (dis dst (rowOf (loopCat src (ix1 e))) * dis dst (rowOf (loopCat dst (ix1 e))))
      * HW (ix2 (rowOf (loopCat src (ix1 e))) q)) p (loop_lands_iff dst p))).trans ?_
  have key := Cert.GcnLaw.layer_entry (dis dst p) (dis_nonneg dst p) (dis_ne_top dst p)
    (fun e : Fin 800000 => (dst (ix1 e)).toInt = (p.val : ℤ)) (fun e => dis dst (rowOf (src (ix1 e))))
    (fun e => HW (ix2 (rowOf (src (ix1 e))) q)) (HW (ix2 p q))
  refine Eq.trans ?_ (key.symm.trans ?_)
  · refine congrArg (fun t => (0 : EReal) + t) (congrArg₂ (· + ·) (Finset.sum_congr rfl fun e _ => ?_) ?_)
    · show (if (loopCat dst (ix1 (Fin.castAdd 50000 e))).toInt = (p.val : ℤ)
          then (dis dst (rowOf (loopCat src (ix1 (Fin.castAdd 50000 e))))
              * dis dst (rowOf (loopCat dst (ix1 (Fin.castAdd 50000 e)))))
            * HW (ix2 (rowOf (loopCat src (ix1 (Fin.castAdd 50000 e)))) q) else 0) = _
      rw [loopCat_edge, loopCat_edge]
      by_cases h : (dst (ix1 e)).toInt = (p.val : ℤ)
      · rw [if_pos h, if_pos h, rowOf_of_toInt _ p h]
      · rw [if_neg h, if_neg h]
    · show (dis dst (rowOf (loopCat src (ix1 (Fin.natAdd 800000 p))))
            * dis dst (rowOf (loopCat dst (ix1 (Fin.natAdd 800000 p)))))
          * HW (ix2 (rowOf (loopCat src (ix1 (Fin.natAdd 800000 p)))) q) = _
      rw [loopCat_loop, loopCat_loop, rowOf_of_toInt _ p (loopWord_toInt p)]
  · rw [zero_add]

end Cert.ReferenceIdeal.Conv

end
-- ==== Proof.RefTailDef.lean ====
/-
  The read-out both programs end with, as one function of the node features: the rows of the last layer are summed
  per graph (every node's graph word says where its row lands), each graph's sum is divided by its node count (at least
  one), and the pooled rows go through the final linear map and its bias.
-/
import proofs.«141337_j45904610459949_2_alg».proof.ReferenceIdeal
import proofs.«141337_j45904610459949_2_alg».proof.Proof.Gen.ReferenceIdeal
import Idealize.ShloMosaic.PureOps.Ideal

noncomputable section

namespace Cert.ReferenceIdeal.Tail

open Cert.ReferenceIdeal Cert.ReferenceIdeal.Gen Idealize.ShloMosaic

/-- Mean pool over graphs, then the linear read-out. -/
def tailR (H : FVec Ideal S50000x128 .f32) (batch : IVec S50000 32) (lw : FVec Ideal S128x1 .f32) (lb : FVec Ideal S1 .f32) : FVec Ideal S256 .f32 :=
  shapeCast S256
    (addf
      (Host.dotGeneral dot_S256x128_S128x1_S256x1_1_0_0_1_n_n none
        (Host.divf
          (Host.scatterAdd scatter_S256x128_S50000x1_S50000x128_1_0_0_1
            (broadcastInDim S256x128 ![] bcast_S_S256x128 (constant (F := Ideal) S_ .f32 0x00000000#32))
            (broadcastInDim S50000x1 ![0] bcast_S50000_S50000x1_0 batch) H)
          (broadcastInDim S256x128 ![0, 1] bcast_S256x1_S256x128_0_1
            (broadcastInDim S256x1 ![0] bcast_S256_S256x1_0
              (maximumf
                (Host.scatterAdd scatter_S256_S50000x1_S50000_n_0_0_1
                  (broadcastInDim S256 ![] bcast_S_S256 (constant (F := Ideal) S_ .f32 0x00000000#32))
                  (broadcastInDim S50000x1 ![0] bcast_S50000_S50000x1_0 batch)
                  (broadcastInDim S50000 ![] bcast_S_S50000 (constant (F := Ideal) S_ .f32 0x3F800000#32)))
                (broadcastInDim S256 ![] bcast_S_S256 (constant (F := Ideal) S_ .f32 0x3F800000#32))))))
        lw)
      (broadcastInDim S256x1 ![0, 1] bcast_S1x1_S256x1_0_1 (broadcastInDim S1x1 ![1] bcast_S1_S1x1_1 lb)))
    shapeCasts_S256x1_S256

end Cert.ReferenceIdeal.Tail

end
-- ==== Proof.RefStages.lean ====
/-
  The reference's stages outside the three layer terms, read as the specification's operations.

  The two rows of the edge array, reshaped to vectors, are the source and destination words. The neighbour sum gathers
  the feature rows named by the wrapped destination words and sums them into the nodes the source words land on: the
  specification's aggregation. Each layer's transformed features are the matrix product of the layer's input with its
  weights.
-/
import proofs.«141337_j45904610459949_2_alg».proof.Proof.ReadP
import proofs.«141337_j45904610459949_2_alg».proof.Proof.Spec
import proofs.«141337_j45904610459949_2_alg».proof.Proof.SpecIO
import proofs.«141337_j45904610459949_2_alg».proof.Proof.GraphOps

noncomputable section

namespace Cert.ReferenceIdeal.Net

open Cert.ReferenceIdeal Cert.ReferenceIdeal.Gen Cert.ReferenceIdeal.ReadP Cert.Gcn Idealize.ShloMosaic Idealize.ShloMosaic.ValueIdx

/-- Row 0 of the edge array, reshaped to a vector, is the source words. -/
theorem v1_eq (x1 : (⟨S2x800000, .i32⟩ : BufTy).Contents (Elt Ideal)) : val_main_v1 (F := Ideal) x1 = srcW x1 := by
  funext i
  rw [val_main_v1_apply, val_main_v0_apply]
  unfold srcW
  exact congrArg x1 (funext fun a => Fin.ext (by
    match a with
    | ⟨0, _⟩ => rfl
    | ⟨1, _⟩ => have h0 : (i 0).val < 800000 := (i 0).isLt; show (i 0).val % 800000 = (i 0).val; omega))

/-- Row 1 of the edge array, reshaped to a vector, is the destination words. -/
theorem v3_eq (x1 : (⟨S2x800000, .i32⟩ : BufTy).Contents (Elt Ideal)) : val_main_v3 (F := Ideal) x1 = dstW x1 := by
  funext i
  rw [val_main_v3_apply, val_main_v2_apply]
  unfold dstW
  exact congrArg x1 (funext fun a => Fin.ext (by
    match a with
    | ⟨0, _⟩ => rfl
    | ⟨1, _⟩ => have h0 : (i 0).val < 800000 := (i 0).isLt; show (i 0).val % 800000 = (i 0).val; omega))

theorem v19_eq (x1 : (⟨S2x800000, .i32⟩ : BufTy).Contents (Elt Ideal)) : val_main_v19 (F := Ideal) x1 = srcW x1 :=
  (v1_eq x1)
theorem v22_eq (x1 : (⟨S2x800000, .i32⟩ : BufTy).Contents (Elt Ideal)) : val_main_v22 (F := Ideal) x1 = dstW x1 :=
  (v3_eq x1)
theorem v69_eq (x1 : (⟨S2x800000, .i32⟩ : BufTy).Contents (Elt Ideal)) : val_main_v69 (F := Ideal) x1 = srcW x1 :=
  (v1_eq x1)
theorem v72_eq (x1 : (⟨S2x800000, .i32⟩ : BufTy).Contents (Elt Ideal)) : val_main_v72 (F := Ideal) x1 = dstW x1 :=
  (v3_eq x1)
theorem v119_eq (x1 : (⟨S2x800000, .i32⟩ : BufTy).Contents (Elt Ideal)) : val_main_v119 (F := Ideal) x1 = srcW x1 :=
  (v1_eq x1)
theorem v122_eq (x1 : (⟨S2x800000, .i32⟩ : BufTy).Contents (Elt Ideal)) : val_main_v122 (F := Ideal) x1 = dstW x1 :=
  (v3_eq x1)

/-- The reference's neighbour sum: rows of the features gathered by the wrapped destination words and summed into the
    nodes the source words land on. -/
theorem v13_eq (x0 : (⟨S50000x64, .f32⟩ : BufTy).Contents (Elt Ideal)) (x1 : (⟨S2x800000, .i32⟩ : BufTy).Contents (Elt Ideal)) :
    val_main_v13 (F := Ideal) x0 x1 = agg (dstW x1) (srcW x1) x0 := by
  unfold val_main_v13 val_main_v12 val_main_v11 val_main_v10 val_main_v9 val_main_v8 val_main_v7 val_main_v6 val_main_v5
    val_main_v4 val_main_cst val_main_c val_main_c_0
  rw [v1_eq, v3_eq]
  generalize dstW x1 = g
  generalize srcW x1 = s
  exact aggOps_eq gather_S50000x64_S800000x1_S800000x64_1_0_n_n_0_1_164_wf scatter_S50000x64_S800000x1_S800000x64_1_0_0_1_wf
    bcast_S_S800000 bcast_S800000_S800000x1_0 bcast_S_S50000x64 g s x0

/-- The transformed features of each layer are the matrix product of the layer's input with its weights. -/
theorem v49_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) :
    val_main_v49 (F := Ideal) x0 x1 x3 = mm (val_main_v16 (F := Ideal) x0 x1) x3 := by
  refine mat_ext fun p q => ?_
  rw [val_main_v49_apply]
  generalize val_main_v16 (F := Ideal) x0 x1 = H
  unfold mm
  rw [mat_apply]
  refine Finset.sum_congr rfl fun k _ => ?_
  have hl : lidx_main_v49 (ix2 p q) k = ix2 p k := by
    funext a; refine Fin.ext ?_
    match a with
    | ⟨0, _⟩ => rfl
    | ⟨1, _⟩ => rfl
  have hr : ridx_main_v49 (ix2 p q) k = ix2 k q := by
    funext a; refine Fin.ext ?_
    match a with
    | ⟨0, _⟩ => rfl
    | ⟨1, _⟩ => rfl
  rw [hl, hr]

theorem v99_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) :
    val_main_v99 (F := Ideal) x0 x1 x3 x4 x5 = mm (val_main_v66 (F := Ideal) x0 x1 x3 x4) x5 := by
  refine mat_ext fun p q => ?_
  rw [val_main_v99_apply]
  generalize val_main_v66 (F := Ideal) x0 x1 x3 x4 = H
  unfold mm
  rw [mat_apply]
  refine Finset.sum_congr rfl fun k _ => ?_
  have hl : lidx_main_v99 (ix2 p q) k = ix2 p k := by
    funext a; refine Fin.ext ?_
    match a with
    | ⟨0, _⟩ => rfl
    | ⟨1, _⟩ => rfl
  have hr : ridx_main_v99 (ix2 p q) k = ix2 k q := by
    funext a; refine Fin.ext ?_
    match a with
    | ⟨0, _⟩ => rfl
    | ⟨1, _⟩ => rfl
  rw [hl, hr]

theorem v149_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v149 (F := Ideal) x0 x1 x3 x4 x5 x6 x7 = mm (val_main_v116 (F := Ideal) x0 x1 x3 x4 x5 x6) x7 := by
  refine mat_ext fun p q => ?_
  rw [val_main_v149_apply]
  generalize val_main_v116 (F := Ideal) x0 x1 x3 x4 x5 x6 = H
  unfold mm
  rw [mat_apply]
  refine Finset.sum_congr rfl fun k _ => ?_
  have hl : lidx_main_v149 (ix2 p q) k = ix2 p k := by
    funext a; refine Fin.ext ?_
    match a with
    | ⟨0, _⟩ => rfl
    | ⟨1, _⟩ => rfl
  have hr : ridx_main_v149 (ix2 p q) k = ix2 k q := by
    funext a; refine Fin.ext ?_
    match a with
    | ⟨0, _⟩ => rfl
    | ⟨1, _⟩ => rfl
  rw [hl, hr]

end Cert.ReferenceIdeal.Net

end
-- ==== Proof.RefNorm.lean ====
/-
  The reference's row normalization is the specification's.

  The reference squares the neighbour sums, adds each row's 64 squares to a zero start, lays the 50000 row totals out
  as a column, takes the square root, repeats the column across the 64 columns and divides. Read at an entry (p, q) this
  is the entry divided by the square root of the sum of the squares of row p: every row divided by its Euclidean norm.
-/
import Idealize.ShloMosaic.Lib.IdealHost
import Idealize.ShloMosaic.PureOps.Ideal.Laws
import proofs.«141337_j45904610459949_2_alg».proof.Proof.ReadP
import proofs.«141337_j45904610459949_2_alg».proof.Proof.Spec
import proofs.«141337_j45904610459949_2_alg».proof.Proof.SpecIO
import proofs.«141337_j45904610459949_2_alg».proof.Proof.LibBroadcastInDim

noncomputable section

namespace Cert.ReferenceIdeal.Norm

open Cert.ReferenceIdeal Cert.ReferenceIdeal.Gen Cert.ReferenceIdeal.ReadP Cert.Gcn Idealize.ShloMosaic
open Idealize.ShloMosaic.ValueIdx Cert.Lib.BroadcastInDim

/-- On the extended reals the host's division of two arrays, read at an index. -/
theorem hostDivf_apply {s : Shape} {φ : FTy} (x y : FVec Ideal s φ) (i : s.Idx) :
    Host.divf x y i = Ideal.div (x i) (y i) := rfl

/-- On the extended reals the host's square root of an array, read at an index. -/
theorem hostSqrt_apply {s : Shape} {φ : FTy} (x : FVec Ideal s φ) (i : s.Idx) : Host.sqrt x i = Ideal.sqrt (x i) := rfl

/-- A [50000, 64] array summed along its rows from a start value: row p's total is the start plus the 64 entries. -/
theorem rowSum_apply (y : FVec Ideal S50000x64 .f32) (c : FVec Ideal S_ .f32) (p : Fin 50000) :
    Host.reduceAdd y c reducesTo_S50000x64_S50000_d1 h_S_ (ix1 p)
      = c (Shape.Idx.first h_S_) + ∑ k : Fin 64, y (ix2 p k) := by
  rw [hostReduceAdd_apply, Ideal.hostReduceAdd_single reducesTo_S50000x64_S50000_d1 (by decide)]
  refine congrArg (_ + ·) (Finset.sum_congr rfl fun k _ => ?_)
  exact congrArg y (funext fun a => Fin.ext (by match a with | ⟨0, _⟩ => rfl | ⟨1, _⟩ => rfl))

/-- The normalization of any [50000, 64] array, spelt with the reference's operations, divides every row by its norm. -/
theorem norm_of (S : FVec Ideal S50000x64 .f32) :
    Host.divf S (broadcastInDim S50000x64 ![0, 1] bcast_S50000x1_S50000x64_0_1
      (Host.sqrt (broadcastInDim S50000x1 ![0] bcast_S50000_S50000x1_0
        (Host.reduceAdd (mulf S S) (constant (F := Ideal) S_ .f32 0x00000000#32)
          reducesTo_S50000x64_S50000_d1 h_S_))))
      = normRows S := by
  refine mat_ext fun p q => ?_
  rw [hostDivf_apply, colAcross_apply bcast_S50000x1_S50000x64_0_1 _ p q, hostSqrt_apply,
    vecAsCol_apply bcast_S50000_S50000x1_0 _ p, rowSum_apply, constant_apply, Ideal.ofBits_zero_f32, zero_add]
  unfold normRows
  rw [mat_apply]
  refine congrArg (fun t => Ideal.div (S (ix2 p q)) (Ideal.sqrt t)) (Finset.sum_congr rfl fun k _ => ?_)
  rw [mulf_apply]

/-- THE NORMALIZATION STAGE: the reference's normalized neighbour sums are the specification's. -/
theorem norm_stage (x0 : (⟨S50000x64, .f32⟩ : BufTy).Contents (Elt Ideal)) (x1 : (⟨S2x800000, .i32⟩ : BufTy).Contents (Elt Ideal)) :
    val_main_v16 (F := Ideal) x0 x1 = normRows (val_main_v13 (F := Ideal) x0 x1) := by
  unfold val_main_v16 val_main_v15 val_main_v14 val_main_call0_v2 val_main_call0_v1 val_main_call0_v0 val_main_call0_cst
  generalize val_main_v13 (F := Ideal) x0 x1 = S
  exact norm_of S

end Cert.ReferenceIdeal.Norm

end
-- ==== Proof.RefConv1.lean ====
/-
  The first layer of the reference, stage by stage, is the layer term: the operations after the layer's matrix product
  are, one for one, the operations the term is built from, applied to the same edge words, product and bias.
-/
import proofs.«141337_j45904610459949_2_alg».proof.Proof.ReadP
import proofs.«141337_j45904610459949_2_alg».proof.Proof.RefConvDef

noncomputable section

namespace Cert.ReferenceIdeal.Net

open Cert.ReferenceIdeal Cert.ReferenceIdeal.Gen Cert.ReferenceIdeal.ReadP Cert.ReferenceIdeal.Conv Idealize.ShloMosaic Idealize.ShloMosaic.ValueIdx
/-- The stages of the first layer after its matrix product are the layer term at the product. -/
theorem v66_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) :
    val_main_v66 (F := Ideal) x0 x1 x3 x4
      = convR (val_main_v19 (F := Ideal) x1) (val_main_v22 (F := Ideal) x1) (val_main_v49 (F := Ideal) x0 x1 x3) x4 := by
  unfold val_main_v66 val_main_call2_v0 val_main_call2_cst val_main_v65 val_main_v64 val_main_v63 val_main_v62
    val_main_v61 val_main_v60 val_main_cst_12 val_main_v59 val_main_v58 val_main_v57 val_main_v56 val_main_v55
    val_main_v54 val_main_v53 val_main_c_11 val_main_v52 val_main_v51 val_main_c_10 val_main_v50 val_main_v48
    val_main_v47 val_main_v46 val_main_v45 val_main_v44 val_main_v43 val_main_c_9 val_main_v42 val_main_v41
    val_main_c_8 val_main_v40 val_main_v39 val_main_v38 val_main_v37 val_main_v36 val_main_c_7 val_main_v35
    val_main_v34 val_main_c_6 val_main_v33 val_main_call1_v1 val_main_call1_v0 val_main_cst_5 val_main_v32
    val_main_v31 val_main_v30 val_main_cst_4 val_main_v29 val_main_v28 val_main_cst_3 val_main_v27 val_main_v26
    val_main_v25 val_main_cst_2 val_main_v24 val_main_cst_1 val_main_v23 val_main_v20 val_main_v17
    convR normR disR degR wrapR loopCat
  generalize val_main_v49 (F := Ideal) x0 x1 x3 = HW
  generalize val_main_v19 (F := Ideal) x1 = src
  generalize val_main_v22 (F := Ideal) x1 = dst
  rfl

end Cert.ReferenceIdeal.Net

end
-- ==== Proof.RefConv2.lean ====
/-
  The second layer of the reference, stage by stage, is the layer term: the operations after the layer's matrix product
  are, one for one, the operations the term is built from, applied to the same edge words, product and bias.
-/
import proofs.«141337_j45904610459949_2_alg».proof.Proof.ReadP
import proofs.«141337_j45904610459949_2_alg».proof.Proof.RefConvDef

noncomputable section

namespace Cert.ReferenceIdeal.Net

open Cert.ReferenceIdeal Cert.ReferenceIdeal.Gen Cert.ReferenceIdeal.ReadP Cert.ReferenceIdeal.Conv Idealize.ShloMosaic Idealize.ShloMosaic.ValueIdx
/-- The stages of the second layer after its matrix product are the layer term at the product. -/
theorem v116_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v116 (F := Ideal) x0 x1 x3 x4 x5 x6
      = convR (val_main_v69 (F := Ideal) x1) (val_main_v72 (F := Ideal) x1) (val_main_v99 (F := Ideal) x0 x1 x3 x4 x5) x6 := by
  unfold val_main_v116 val_main_call4_v0 val_main_call4_cst val_main_v115 val_main_v114 val_main_v113 val_main_v112
    val_main_v111 val_main_v110 val_main_cst_24 val_main_v109 val_main_v108 val_main_v107 val_main_v106
    val_main_v105 val_main_v104 val_main_v103 val_main_c_23 val_main_v102 val_main_v101 val_main_c_22
    val_main_v100 val_main_v98 val_main_v97 val_main_v96 val_main_v95 val_main_v94 val_main_v93 val_main_c_21
    val_main_v92 val_main_v91 val_main_c_20 val_main_v90 val_main_v89 val_main_v88 val_main_v87 val_main_v86
    val_main_c_19 val_main_v85 val_main_v84 val_main_c_18 val_main_v83 val_main_call3_v1 val_main_call3_v0
    val_main_cst_17 val_main_v82 val_main_v81 val_main_v80 val_main_cst_16 val_main_v79 val_main_v78
    val_main_cst_15 val_main_v77 val_main_v76 val_main_v75 val_main_cst_14 val_main_v74 val_main_cst_13
    val_main_v73 val_main_v70 val_main_v67
    convR normR disR degR wrapR loopCat
  generalize val_main_v99 (F := Ideal) x0 x1 x3 x4 x5 = HW
  generalize val_main_v69 (F := Ideal) x1 = src
  generalize val_main_v72 (F := Ideal) x1 = dst
  rfl

end Cert.ReferenceIdeal.Net

end
-- ==== Proof.RefConv3.lean ====
/-
  The third layer of the reference, stage by stage, is the layer term: the operations after the layer's matrix product
  are, one for one, the operations the term is built from, applied to the same edge words, product and bias.
-/
import proofs.«141337_j45904610459949_2_alg».proof.Proof.ReadP
import proofs.«141337_j45904610459949_2_alg».proof.Proof.RefConvDef

noncomputable section

namespace Cert.ReferenceIdeal.Net

open Cert.ReferenceIdeal Cert.ReferenceIdeal.Gen Cert.ReferenceIdeal.ReadP Cert.ReferenceIdeal.Conv Idealize.ShloMosaic Idealize.ShloMosaic.ValueIdx
/-- The stages of the third layer after its matrix product are the layer term at the product. -/
theorem v166_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v166 (F := Ideal) x0 x1 x3 x4 x5 x6 x7 x8
      = convR (val_main_v119 (F := Ideal) x1) (val_main_v122 (F := Ideal) x1) (val_main_v149 (F := Ideal) x0 x1 x3 x4 x5 x6 x7) x8 := by
  unfold val_main_v166 val_main_call6_v0 val_main_call6_cst val_main_v165 val_main_v164 val_main_v163 val_main_v162
    val_main_v161 val_main_v160 val_main_cst_36 val_main_v159 val_main_v158 val_main_v157 val_main_v156
    val_main_v155 val_main_v154 val_main_v153 val_main_c_35 val_main_v152 val_main_v151 val_main_c_34
    val_main_v150 val_main_v148 val_main_v147 val_main_v146 val_main_v145 val_main_v144 val_main_v143
    val_main_c_33 val_main_v142 val_main_v141 val_main_c_32 val_main_v140 val_main_v139 val_main_v138
    val_main_v137 val_main_v136 val_main_c_31 val_main_v135 val_main_v134 val_main_c_30 val_main_v133
    val_main_call5_v1 val_main_call5_v0 val_main_cst_29 val_main_v132 val_main_v131 val_main_v130 val_main_cst_28
    val_main_v129 val_main_v128 val_main_cst_27 val_main_v127 val_main_v126 val_main_v125 val_main_cst_26
    val_main_v124 val_main_cst_25 val_main_v123 val_main_v120 val_main_v117
    convR normR disR degR wrapR loopCat
  generalize val_main_v149 (F := Ideal) x0 x1 x3 x4 x5 x6 x7 = HW
  generalize val_main_v119 (F := Ideal) x1 = src
  generalize val_main_v122 (F := Ideal) x1 = dst
  rfl

end Cert.ReferenceIdeal.Net

end
-- ==== Proof.RefTailEq.lean ====
/-
  The reference's read-out stages are the read-out term at the last layer's output: the seventeen operations after the
  third layer are, one for one, the operations the term is built from.
-/
import proofs.«141337_j45904610459949_2_alg».proof.Proof.ReadP
import proofs.«141337_j45904610459949_2_alg».proof.Proof.RefTailDef

noncomputable section

namespace Cert.ReferenceIdeal.Net

open Cert.ReferenceIdeal Cert.ReferenceIdeal.Gen Cert.ReferenceIdeal.ReadP Cert.ReferenceIdeal.Tail Idealize.ShloMosaic Idealize.ShloMosaic.ValueIdx

theorem ref_tail
    (x0 : (⟨S50000x64, .f32⟩ : BufTy).Contents (Elt Ideal)) (x1 : (⟨S2x800000, .i32⟩ : BufTy).Contents (Elt Ideal))
    (x2 : (⟨S50000, .i32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x1, .f32⟩ : BufTy).Contents (Elt Ideal))
    (x10 : (⟨S1, .f32⟩ : BufTy).Contents (Elt Ideal)) :
    val_main_v183 (F := Ideal) x0 x1 x2 x3 x4 x5 x6 x7 x8 x9 x10
      = tailR (val_main_v166 (F := Ideal) x0 x1 x3 x4 x5 x6 x7 x8) x2 x9 x10 := by
  unfold val_main_v183 val_main_v182 val_main_v181 val_main_v180 val_main_v179 val_main_v178 val_main_v177 val_main_v176
    val_main_v175 val_main_v174 val_main_v173 val_main_v172 val_main_v171 val_main_v170 val_main_v169 val_main_v168
    val_main_v167 val_main_cst_37 val_main_cst_38 val_main_cst_39 val_main_cst_40 tailR
  generalize val_main_v166 (F := Ideal) x0 x1 x3 x4 x5 x6 x7 x8 = H
  rfl

end Cert.ReferenceIdeal.Net

end
-- ==== Proof.RefNet.lean ====
/-
  The reference's three layers are the specification's network.

  Each layer's stages are the layer term at the layer's matrix product; the term is the specification's layer (the
  hypothesis `hconv`); the product is the specification's matrix product of the previous layer's output; and the first
  layer's input is the normalized neighbour sum. Substituting from the last layer inwards gives the network. The
  read-out after the third layer is the read-out term (`ref_tail`).
-/
import proofs.«141337_j45904610459949_2_alg».proof.Proof.ReadP
import proofs.«141337_j45904610459949_2_alg».proof.Proof.RefConvDef
import proofs.«141337_j45904610459949_2_alg».proof.Proof.RefTailDef
import proofs.«141337_j45904610459949_2_alg».proof.Proof.Spec
import proofs.«141337_j45904610459949_2_alg».proof.Proof.SpecIO
import proofs.«141337_j45904610459949_2_alg».proof.Proof.RefStages
import proofs.«141337_j45904610459949_2_alg».proof.Proof.RefNorm
import proofs.«141337_j45904610459949_2_alg».proof.Proof.RefConv1
import proofs.«141337_j45904610459949_2_alg».proof.Proof.RefConv2
import proofs.«141337_j45904610459949_2_alg».proof.Proof.RefConv3
import proofs.«141337_j45904610459949_2_alg».proof.Proof.RefTailEq

noncomputable section

namespace Cert.ReferenceIdeal.Net

open Cert.ReferenceIdeal Cert.ReferenceIdeal.Gen Cert.ReferenceIdeal.ReadP Cert.ReferenceIdeal.Conv Cert.ReferenceIdeal.Tail Cert.Gcn Idealize.ShloMosaic Idealize.ShloMosaic.ValueIdx

theorem ref_net
    (hconv : ∀ (src dst : Words 800000) (HW : Mat 50000 128) (b : Arr 128),
      convR src dst HW b = layer (dis dst) src dst HW (vecF b))
    (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v166 (F := Ideal) x0 x1 x3 x4 x5 x6 x7 x8
      = net x0 (srcW x1) (dstW x1) x3 (vecF x4) x5 (vecF x6) x7 (vecF x8) := by
  rw [v166_eq, v119_eq, v122_eq, hconv, v149_eq, v116_eq, v69_eq, v72_eq, hconv, v99_eq, v66_eq, v19_eq, v22_eq, hconv,
    v49_eq, Cert.ReferenceIdeal.Norm.norm_stage, v13_eq]
  rfl

end Cert.ReferenceIdeal.Net

end
-- ==== Proof.Claims.lean ====
/-
  The five claims.

  The word-level kernel and its idealization run, terminate and leave their arguments alone (the generated frames); so
  does the reference (its run with the result dropped). The idealization rewrote nothing. At the extended reals the
  idealized kernel ends with the read-out of the three-layer network of the specification at its launch arrays — the
  regions' arrays and the stretches between them read back one after the other — and the reference's stage chain ends
  with the same read-out of the same network: its convolution layers, which weigh every edge and self-loop by the product
  of the factors at its two ends, equal the specification's layers because a nonnegative finite factor distributes over
  a sum of extended reals. From memories that agree on the arguments the two results are therefore equal.
-/
import proofs.«141337_j45904610459949_2_alg».proof.Defs
import proofs.«141337_j45904610459949_2_alg».proof.Proof.Gen.Kernel.Frame
import proofs.«141337_j45904610459949_2_alg».proof.Proof.Gen.KernelIdeal.Frame
import proofs.«141337_j45904610459949_2_alg».proof.Proof.Gen.ReferenceIdeal
import proofs.«141337_j45904610459949_2_alg».proof.Proof.Gen.Pre_finite_inputs
import proofs.«141337_j45904610459949_2_alg».proof.Proof.KernelRun
import proofs.«141337_j45904610459949_2_alg».proof.Proof.KernelNet
import proofs.«141337_j45904610459949_2_alg».proof.Proof.Region0
import proofs.«141337_j45904610459949_2_alg».proof.Proof.Region1
import proofs.«141337_j45904610459949_2_alg».proof.Proof.Region2
import proofs.«141337_j45904610459949_2_alg».proof.Proof.Region3
import proofs.«141337_j45904610459949_2_alg».proof.Proof.Region4
import proofs.«141337_j45904610459949_2_alg».proof.Proof.Region5
import proofs.«141337_j45904610459949_2_alg».proof.Proof.RunP
import proofs.«141337_j45904610459949_2_alg».proof.Proof.ReadP
import proofs.«141337_j45904610459949_2_alg».proof.Proof.RefConv
import proofs.«141337_j45904610459949_2_alg».proof.Proof.RefNet
import proofs.«141337_j45904610459949_2_alg».proof.Proof.RefTailEq
import proofs.«141337_j45904610459949_2_alg».proof.Proof.KernelTailDef
import proofs.«141337_j45904610459949_2_alg».proof.Proof.RefTailDef

set_option maxRecDepth 16384

noncomputable section

namespace Cert.Proof.Claims

open Idealize.ShloMosaic Idealize.ShloMosaic.TcCoe Idealize.SL.Sem Cert.Gcn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The two programs spell the read-out with the same operations. -/
theorem tail_same (H : FVec Ideal Cert.KernelIdeal.S50000x128 .f32) (batch : IVec Cert.KernelIdeal.S50000 32)
    (lw : FVec Ideal Cert.KernelIdeal.S128x1 .f32) (lb : FVec Ideal Cert.KernelIdeal.S1 .f32) :
    Cert.ReferenceIdeal.Tail.tailR H batch lw lb = Cert.KernelIdeal.Tail.tailK H batch lw lb := rfl

/-- The common result: the read-out of the network at the kernel's launch arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v80) :=
  Cert.KernelIdeal.Tail.tailK
    (net (m ((c.tc : Thread Cert.KernelIdeal.nD Cert.KernelIdeal.τ).loc Cert.KernelIdeal.main_arg0)) (srcW (m ((c.tc : Thread Cert.KernelIdeal.nD Cert.KernelIdeal.τ).loc Cert.KernelIdeal.main_arg1))) (dstW (m ((c.tc : Thread Cert.KernelIdeal.nD Cert.KernelIdeal.τ).loc Cert.KernelIdeal.main_arg1))) (m ((c.tc : Thread Cert.KernelIdeal.nD Cert.KernelIdeal.τ).loc Cert.KernelIdeal.main_arg3)) (vecF (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)) (vecF (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (vecF (m ((c.tc : Thread Cert.KernelIdeal.nD Cert.KernelIdeal.τ).loc Cert.KernelIdeal.main_arg8))))
    (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

theorem algebraic : Cert.algebraic_KernelIdeal_ReferenceIdeal := by
  intro m ρ m' ρ' _ hagree
  refine ⟨result m, ?_, ?_⟩
  · exact (θ_run Cert.KernelIdeal.defs _ _).mono
      (fun _ h c => ⟨(h c).1.trans (Cert.KernelIdeal.Net.kernel_value m ρ Cert.KernelIdeal.Regions.region0 Cert.KernelIdeal.Regions.region1
          Cert.KernelIdeal.Regions.region2 Cert.KernelIdeal.Regions.region3 Cert.KernelIdeal.Regions.region4 Cert.KernelIdeal.Regions.region5 c),
        (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v183_eq, Cert.ReferenceIdeal.Net.ref_tail,
      Cert.ReferenceIdeal.Net.ref_net Cert.ReferenceIdeal.Conv.convR_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact tail_same _ _ _ _

end Cert.Proof.Claims

end
-- ==== Proof.lean ====
/-
  The certificate: a tiled graph-convolution network (three layers over a 50000-node, 800000-edge graph, mean pool and a
  linear read-out) against its plain reference, on the extended reals.

  The tiled program never appends the self-loops to the edge list and never gathers a per-edge weight: with D the inverse
  square root of the degree (one more than the number of edges landing on a node) it scales the transformed features row
  by row, sums the scaled rows over the original edges, adds each node's own scaled row and scales once more — which is
  the reference's sum over edges and loops weighted by D at both ends, since D is a nonnegative real and such a factor
  distributes over every finite sum of extended reals. The modules under Proof/ state the network entry by entry (Spec),
  read both programs back to it (the kernel's boundaries and regions; the reference's stages) and join them (Claims).
-/
import proofs.«141337_j45904610459949_2_alg».proof.Defs
import proofs.«141337_j45904610459949_2_alg».proof.Proof.Gen.Kernel
import proofs.«141337_j45904610459949_2_alg».proof.Proof.Gen.KernelIdeal
import proofs.«141337_j45904610459949_2_alg».proof.Proof.Gen.ReferenceIdeal
import proofs.«141337_j45904610459949_2_alg».proof.Proof.Gen.Pre_finite_inputs
import proofs.«141337_j45904610459949_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
